-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S4096x4096 : Shape := ⟨2, ![4096, 4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x4096 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S4096x256 .f32) (main_arg1 : FVec F S4096x256 .f32) (main_arg2 : FVec F S256x256 .f32) (main_arg3 : FVec F S256x256 .f32) (main_arg4 : FVec F S4096x4096 .f32) (main_arg5 : FVec F S4096x4096 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S4096x256 : Shape := ⟨2, ![4096, 256]⟩
abbrev S256x256 : Shape := ⟨2, ![256, 256]⟩
abbrev S4096x4096 : Shape := ⟨2, ![4096, 4096]⟩
abbrev S256x4096 : Shape := ⟨2, ![256, 4096]⟩

abbrev nBuf : Space → Nat
  | .hbm => 8
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S256x256, .f32⟩
  | .hbm, ⟨4, _⟩ => ⟨S4096x4096, .f32⟩
  | .hbm, ⟨5, _⟩ => ⟨S4096x4096, .f32⟩
  | .hbm, ⟨6, _⟩ => ⟨S4096x256, .f32⟩
  | .hbm, ⟨7, _⟩ => ⟨S4096x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S256x256, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S4096x256, .bf16⟩
  | .local _ .vmem, ⟨13, _⟩ => ⟨S4096x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S256x4096_S256x4096_0_0 : ∀ a, (![0, 0] : Fin 2 → Nat) a + S256x4096.size a ≤ S256x4096.size a
  h_S256x4096 : 0 < S256x4096.numel
  dot_S4096x256_S256x256_S4096x256_1_0_0_1_n_n_wf : DotDims.WF S4096x256 S256x256 S4096x256 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .f32 = 32 ∨ (Rect.block (s := S4096x4096) S256x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S4096x256.size a
  hwx0_6 : ∀ i : grid0.Coords, EltTy.bits .f32 = 32 ∨ (Rect.block (s := S4096x256) S256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S4096x256.size a
  hwx0_7 : ∀ i : grid0.Coords, EltTy.bits .f32 = 32 ∨ (Rect.block (s := S4096x256) S256x256.size (cc0_transform_7 i) (hinb0_7 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S4096x4096 : Shape := ⟨2, ![4096, 4096]⟩
abbrev S4096x512 : Shape := ⟨2, ![4096, 512]⟩
abbrev S512x256 : Shape := ⟨2, ![512, 256]⟩
abbrev S512x512 : Shape := ⟨2, ![512, 512]⟩
abbrev S256x512 : Shape := ⟨2, ![256, 512]⟩

abbrev nBuf : Space → Nat
  | .hbm => 10
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S256x256, .f32⟩
  | .hbm, ⟨4, _⟩ => ⟨S4096x4096, .f32⟩
  | .hbm, ⟨5, _⟩ => ⟨S4096x4096, .f32⟩
  | .hbm, ⟨6, _⟩ => ⟨S4096x512, .f32⟩
  | .hbm, ⟨7, _⟩ => ⟨S4096x512, .f32⟩
  | .hbm, ⟨8, _⟩ => ⟨S4096x256, .f32⟩
  | .hbm, ⟨9, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x256, .f32⟩
  | .local _ .vmem, ⟨5, _⟩ => ⟨S256x256, .f32⟩
  | .local _ .vmem, ⟨6, _⟩ => ⟨S512x512, .f32⟩
  | .local _ .vmem, ⟨7, _⟩ => ⟨S512x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S512x512, .f32⟩
  | .local _ .vmem, ⟨13, _⟩ => ⟨S512x512, .f32⟩
  | .local _ .vmem, ⟨14, _⟩ => ⟨S256x512, .f32⟩
  | .local _ .vmem, ⟨15, _⟩ => ⟨S256x512, .f32⟩
  | .local _ .vmem, ⟨16, _⟩ => ⟨S256x256, .f32⟩
  | .local _ .vmem, ⟨17, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  concatenates_S512x256_S512x256_S512x512_d1 : Shape.Concatenates [S512x256, S512x256] S512x512 1
  inb_S512x512_S512x512_0_0 : ∀ a, (![0, 0] : Fin 2 → Nat) a + S512x512.size a ≤ S512x512.size a
  h_S512x512 : 0 < S512x512.numel
  shapeCasts_S256x256_S256x256 : S256x256.ShapeCasts S256x256
  shapeCasts_S512x512_S512x512 : S512x512.ShapeCasts S512x512
  inb_S256x512_S256x512_0_0 : ∀ a, (![0, 0] : Fin 2 → Nat) a + S256x512.size a ≤ S256x512.size a
  h_S256x512 : 0 < S256x512.numel
  slices_S512x512_o0_0_S512x256 : S512x512.Slices ![0, 0] S512x256
  slices_S512x512_o0_256_S512x256 : S512x512.Slices ![0, 256] S512x256
  inb_S256x512_S256x256_0_0 : ∀ a, (![0, 0] : Fin 2 → Nat) a + S256x256.size a ≤ S256x512.size a
  inb_S256x512_S256x256_0_256 : ∀ a, (![0, 256] : Fin 2 → Nat) a + S256x256.size a ≤ S256x512.size a
  slices_S4096x512_S4096x256_0_0 : S4096x512.Slices ![0, 0] S4096x256
  slices_S4096x512_S4096x256_0_256 : S4096x512.Slices ![0, 256] S4096x256
  dot_S512x256_S256x256_S512x256_1_0_0_1_n_n_wf : DotDims.WF S512x256 S256x256 S512x256 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .f32 = 32 ∨ (Rect.block (s := S4096x512) S512x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x4096.size a
  hwx1_0 : ∀ i : grid1.Coords, EltTy.bits .f32 = 32 ∨ (Rect.block (s := S4096x4096) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S4096x4096.size a
  hwx1_1 : ∀ i : grid1.Coords, EltTy.bits .f32 = 32 ∨ (Rect.block (s := S4096x4096) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x512.size a
  hwx1_2 : ∀ i : grid1.Coords, EltTy.bits .f32 = 32 ∨ (Rect.block (s := S4096x512) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S4096x512.size a
  hwx1_3 : ∀ i : grid1.Coords, EltTy.bits .f32 = 32 ∨ (Rect.block (s := S4096x512) S256x512.size (cc1_transform_3 i) (hinb1_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg4) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  The function both programs compute, index by index, on the extended reals.

  With `att k l = exp ((-1) · sigma[k,l])`, the feature transform is
    innerM[k,j] = Σ_l (miu[k,l] · att k l) · Wm[l,j],     innerS[k,j] = Σ_l ((sigma[k,l] · att k l) · att k l) · Ws[l,j],
  and the aggregation is
    outM[i,j] = Σ_k adj1[i,k] · innerM[k,j],              outS[i,j] = Σ_k adj2[i,k] · innerS[k,j],
  each sum over the whole contracted axis (256 features, 4096 nodes).  One program forms the sum over the 4096
  nodes at once; the other adds eight partial sums over 512 consecutive nodes to a zero start, which is the same
  extended real because addition there is commutative and associative with 0 neutral (`sum_blocks`, `fold8`).
-/
import Idealize.ShloMosaic.PureOps.Ideal
import Idealize.ShloMosaic.Lib.ValueIdx
import Mathlib.Algebra.BigOperators.Fin

noncomputable section

namespace Cert.Proof.Spec

open Idealize.ShloMosaic Idealize.ShloMosaic.ValueIdx

/-- A two-axis array of extended reals. -/
abbrev Arr (r c : Nat) : Type := (⟨2, ![r, c]⟩ : Shape).Idx → EReal

/-- The literal -1.0 both programs scale sigma by, as the ideal instance reads its word. -/
abbrev negOne : EReal := (Scalar.ofBits (F := Ideal) .f32 0xBF800000#32 : Ideal .f32)

/-- The attenuation `exp (-sigma)` of node `k`, feature `l`. -/
def att (sg : Arr 4096 256) (k : Fin 4096) (l : Fin 256) : EReal := Ideal.exp (negOne * sg (ix2 k l))

/-- The mean's attenuated feature. -/
def featM (mu sg : Arr 4096 256) (k : Fin 4096) (l : Fin 256) : EReal := mu (ix2 k l) * att sg k l

/-- The variance's twice-attenuated feature. -/
def featS (sg : Arr 4096 256) (k : Fin 4096) (l : Fin 256) : EReal := (sg (ix2 k l) * att sg k l) * att sg k l

/-- The transformed mean features: the attenuated features times the weight matrix. -/
def innerM (mu sg : Arr 4096 256) (wm : Arr 256 256) (k : Fin 4096) (j : Fin 256) : EReal :=
  ∑ l : Fin 256, featM mu sg k l * wm (ix2 l j)

/-- The transformed variance features. -/
def innerS (sg : Arr 4096 256) (ws : Arr 256 256) (k : Fin 4096) (j : Fin 256) : EReal :=
  ∑ l : Fin 256, featS sg k l * ws (ix2 l j)

/-- Aggregation over all 4096 nodes by an adjacency matrix. -/
def aggr (a : Arr 4096 4096) (inner : Fin 4096 → Fin 256 → EReal) (i : Fin 4096) (j : Fin 256) : EReal :=
  ∑ k : Fin 4096, a (ix2 i k) * inner k j

/-- The first result, as one function of the argument arrays. -/
def outM (mu sg : Arr 4096 256) (wm : Arr 256 256) (a1 : Arr 4096 4096) : Arr 4096 256 :=
  fun idx => aggr a1 (innerM mu sg wm) (idx 0) (idx 1)

/-- The second result. -/
def outS (sg : Arr 4096 256) (ws : Arr 256 256) (a2 : Arr 4096 4096) : Arr 4096 256 :=
  fun idx => aggr a2 (innerS sg ws) (idx 0) (idx 1)

/-- The two transformed feature arrays side by side along the column axis (columns 0–255 the mean's, 256–511 the
    variance's): what the two-stage program keeps between its stages. -/
def innerCat (mu sg : Arr 4096 256) (wm ws : Arr 256 256) : Arr 4096 512 :=
  fun idx => if h : (idx 1).val < 256 then innerM mu sg wm (idx 0) ⟨(idx 1).val, h⟩
    else innerS sg ws (idx 0) ⟨(idx 1).val - 256, by have := idx2_lt1 idx; omega⟩

/-- Aggregation of the side-by-side array's two halves by the two adjacency matrices, again side by side. -/
def outCat (a1 a2 : Arr 4096 4096) (inner : Arr 4096 512) : Arr 4096 512 :=
  fun idx => if (idx 1).val < 256 then ∑ k : Fin 4096, a1 (ix2 (idx 0) k) * inner (ix2 k (idx 1))
    else ∑ k : Fin 4096, a2 (ix2 (idx 0) k) * inner (ix2 k (idx 1))

end Cert.Proof.Spec

end
-- ==== Proof.KernelPieces.lean ====
/-
  What one run of the kernel body leaves behind, as values.

  The body has two cases.  At a grid point whose second coordinate is 0 it first recomputes both scratch buffers from
  the whole input arrays — the rounded product of the attenuated mean features with the mean weights, and of the
  twice-attenuated variance features with the variance weights — and then, as at every point, multiplies the point's
  row panel of each adjacency matrix with the corresponding scratch buffer and stores the two products as the point's
  output blocks.  Each buffer is written by one store covering it, so what it holds afterwards is that store's value,
  and a load of a buffer after such a store reads the stored value back.  The six statements below say this for the
  two scratch buffers (first case) and the two output blocks (both cases), for any float instance.
-/
import proofs.«104746_g2000202054435738_pallasbulk_107_12_alg».proof.Proof.Gen.KernelIdeal.Value
import Idealize.ShloMosaic.Lib.Tactic

noncomputable section

namespace Cert.Proof.KernelPieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- At a point that recomputes the scratch, the first scratch buffer ends holding the rounded product of the
    attenuated mean features with the mean weights: its one covering store's payload, of the whole input arrays. -/
theorem scratchM_A (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S4096x256 .bf16) (harg10 : arg10.IsWhole) (arg11 : Memref sig .tc .vmem S4096x256 .bf16) (harg11 : arg11.IsWhole) (hc0 : cond0_0 i) (x0 : Vec F S4096x256 .f32) (x1 : Vec F S4096x256 .f32) (x2 : Vec F S256x256 .f32) (x3 : Vec F S256x256 .f32) (x4 : Vec F S256x4096 .f32) (x5 : Vec F S256x4096 .f32) :
    sout0_A_0 c i arg2 harg2 arg3 harg3 arg4 harg4 arg5 harg5 arg6 harg6 arg7 harg7 arg8 harg8 arg9 harg9 arg10 harg10 arg11 harg11 hc0 x0 x1 x2 x3 x4 x5 = k0_pay2 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz]
  simp only [View.readAt_eq_ld, harg2.read_unread, harg3.read_unread, harg4.read_unread,
    View.ld_unit_zero (S := S4096x256) hz, View.ld_unit_zero (S := S256x256) hz]

/-- At such a point the second scratch buffer ends holding the rounded product of the twice-attenuated variance
    features with the variance weights. -/
theorem scratchS_A (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S4096x256 .bf16) (harg10 : arg10.IsWhole) (arg11 : Memref sig .tc .vmem S4096x256 .bf16) (harg11 : arg11.IsWhole) (hc0 : cond0_0 i) (x0 : Vec F S4096x256 .f32) (x1 : Vec F S4096x256 .f32) (x2 : Vec F S256x256 .f32) (x3 : Vec F S256x256 .f32) (x4 : Vec F S256x4096 .f32) (x5 : Vec F S256x4096 .f32) :
    sout0_A_1 c i arg2 harg2 arg3 harg3 arg4 harg4 arg5 harg5 arg6 harg6 arg7 harg7 arg8 harg8 arg9 harg9 arg10 harg10 arg11 harg11 hc0 x0 x1 x2 x3 x4 x5 = k0_pay3 x1 x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz]
  simp only [View.readAt_eq_ld, harg3.read_unread, harg5.read_unread,
    View.ld_unit_zero (S := S4096x256) hz, View.ld_unit_zero (S := S256x256) hz]

/-- At a point that only aggregates, the first output block is the product of the adjacency panel with the first
    scratch buffer as the point before left it. -/
theorem outM_B (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S4096x256 .bf16) (harg10 : arg10.IsWhole) (arg11 : Memref sig .tc .vmem S4096x256 .bf16) (harg11 : arg11.IsWhole) (hc0 : ¬cond0_0 i) (x0 : Vec F S4096x256 .f32) (x1 : Vec F S4096x256 .f32) (x2 : Vec F S256x256 .f32) (x3 : Vec F S256x256 .f32) (x4 : Vec F S256x4096 .f32) (x5 : Vec F S256x4096 .f32) (xs0 : Vec F S4096x256 .bf16) (xs1 : Vec F S4096x256 .bf16) :
    out0_B_6 c i arg2 harg2 arg3 harg3 arg4 harg4 arg5 harg5 arg6 harg6 arg7 harg7 arg8 harg8 arg9 harg9 arg10 harg10 arg11 harg11 hc0 x0 x1 x2 x3 x4 x5 xs0 xs1 = k0_pay4 x4 xs0 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  sl_unfold_words
  rw [View.canon_unit_zero hz]
  simp only [View.readAt_eq_ld, harg6.read_unread, harg10.read_unread,
    View.ld_unit_zero (S := S4096x256) hz, View.ld_unit_zero (S := S256x4096) hz]

/-- … and the second output block the product of the second adjacency panel with the second scratch buffer. -/
theorem outS_B (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S4096x256 .bf16) (harg10 : arg10.IsWhole) (arg11 : Memref sig .tc .vmem S4096x256 .bf16) (harg11 : arg11.IsWhole) (hc0 : ¬cond0_0 i) (x0 : Vec F S4096x256 .f32) (x1 : Vec F S4096x256 .f32) (x2 : Vec F S256x256 .f32) (x3 : Vec F S256x256 .f32) (x4 : Vec F S256x4096 .f32) (x5 : Vec F S256x4096 .f32) (xs0 : Vec F S4096x256 .bf16) (xs1 : Vec F S4096x256 .bf16) :
    out0_B_7 c i arg2 harg2 arg3 harg3 arg4 harg4 arg5 harg5 arg6 harg6 arg7 harg7 arg8 harg8 arg9 harg9 arg10 harg10 arg11 harg11 hc0 x0 x1 x2 x3 x4 x5 xs0 xs1 = k0_pay5 x5 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  sl_unfold_words
  rw [View.canon_unit_zero hz]
  simp only [View.readAt_eq_ld, harg7.read_unread, harg11.read_unread,
    View.ld_unit_zero (S := S4096x256) hz, View.ld_unit_zero (S := S256x4096) hz]

/-- At a point that recomputes the scratch, the first output block is the product of the adjacency panel with the
    scratch value just stored. -/
theorem outM_A (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S4096x256 .bf16) (harg10 : arg10.IsWhole) (arg11 : Memref sig .tc .vmem S4096x256 .bf16) (harg11 : arg11.IsWhole) (hc0 : cond0_0 i) (x0 : Vec F S4096x256 .f32) (x1 : Vec F S4096x256 .f32) (x2 : Vec F S256x256 .f32) (x3 : Vec F S256x256 .f32) (x4 : Vec F S256x4096 .f32) (x5 : Vec F S256x4096 .f32) :
    out0_A_6 c i arg2 harg2 arg3 harg3 arg4 harg4 arg5 harg5 arg6 harg6 arg7 harg7 arg8 harg8 arg9 harg9 arg10 harg10 arg11 harg11 hc0 x0 x1 x2 x3 x4 x5 = k0_pay4 x4 (k0_pay2 x0 x1 x2) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz]
  rw [View.readCov_unit_zero (S := S4096x256) _ hz]
  simp only [View.readAt_eq_ld, harg2.read_unread, harg3.read_unread, harg4.read_unread, harg6.read_unread,
    View.ld_unit_zero (S := S4096x256) hz, View.ld_unit_zero (S := S256x256) hz, View.ld_unit_zero (S := S256x4096) hz]

/-- … and the second output block the product of the second adjacency panel with the second scratch value just stored. -/
theorem outS_A (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S4096x256 .bf16) (harg10 : arg10.IsWhole) (arg11 : Memref sig .tc .vmem S4096x256 .bf16) (harg11 : arg11.IsWhole) (hc0 : cond0_0 i) (x0 : Vec F S4096x256 .f32) (x1 : Vec F S4096x256 .f32) (x2 : Vec F S256x256 .f32) (x3 : Vec F S256x256 .f32) (x4 : Vec F S256x4096 .f32) (x5 : Vec F S256x4096 .f32) :
    out0_A_7 c i arg2 harg2 arg3 harg3 arg4 harg4 arg5 harg5 arg6 harg6 arg7 harg7 arg8 harg8 arg9 harg9 arg10 harg10 arg11 harg11 hc0 x0 x1 x2 x3 x4 x5 = k0_pay5 x5 (k0_pay3 x1 x3) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_unit_zero hz]
  rw [View.readCov_unit_zero (S := S4096x256) _ hz]
  simp only [View.readAt_eq_ld, harg3.read_unread, harg5.read_unread, harg7.read_unread,
    View.ld_unit_zero (S := S4096x256) hz, View.ld_unit_zero (S := S256x256) hz, View.ld_unit_zero (S := S256x4096) hz]

end Cert.Proof.KernelPieces

end
-- ==== Proof.KernelScratch.lean ====
/-
  What the two scratch buffers hold after every grid point.

  The four feature and weight windows have the whole array as their one block, so every point reads the same
  arrays.  A point whose second grid coordinate is 0 stores into both scratch buffers the products computed from
  those arrays; every other point leaves the scratch buffers as the point before left them.  The first point is of
  the first kind, so by induction on the point both scratch buffers hold, after every point, the products computed
  from the whole argument arrays.
-/
import proofs.«104746_g2000202054435738_pallasbulk_107_12_alg».proof.Proof.KernelPieces

noncomputable section

namespace Cert.Proof.KernelScratch

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Window 0's one block is the whole array `main_arg0`: at every point it reads the array as launched. -/
theorem iblk0_eq (c : Dev nD) (t : Fin cfg0.N) :
    (iblk m c 0 t : Vec F S4096x256 .f32) = m ((c : Thread nD τ).loc main_arg0) := by
  have hi : win0_0.index t 0 = 0 ∧ win0_0.index t 1 = 0 :=
    (by decide +kernel : ∀ t : Fin grid0.N, win0_0.index t 0 = 0 ∧ win0_0.index t 1 = 0) t
  funext j
  unfold iblk
  rw [View.read_apply]
  show V m c main_arg0 _ = m (c.tc.loc main_arg0) j
  unfold V
  congr 1
  funext a
  apply Fin.ext
  match a with
  | ⟨0, _⟩ => show win0_0.index t 0 * 4096 + 1 * (j 0).val = (j 0).val; rw [hi.1]; omega
  | ⟨1, _⟩ => show win0_0.index t 1 * 256 + 1 * (j 1).val = (j 1).val; rw [hi.2]; omega

/-- Window 1's one block is the whole array `main_arg1`: at every point it reads the array as launched. -/
theorem iblk1_eq (c : Dev nD) (t : Fin cfg0.N) :
    (iblk m c 1 t : Vec F S4096x256 .f32) = m ((c : Thread nD τ).loc main_arg1) := by
  have hi : win0_1.index t 0 = 0 ∧ win0_1.index t 1 = 0 :=
    (by decide +kernel : ∀ t : Fin grid0.N, win0_1.index t 0 = 0 ∧ win0_1.index t 1 = 0) t
  funext j
  unfold iblk
  rw [View.read_apply]
  show V m c main_arg1 _ = m (c.tc.loc main_arg1) j
  unfold V
  congr 1
  funext a
  apply Fin.ext
  match a with
  | ⟨0, _⟩ => show win0_1.index t 0 * 4096 + 1 * (j 0).val = (j 0).val; rw [hi.1]; omega
  | ⟨1, _⟩ => show win0_1.index t 1 * 256 + 1 * (j 1).val = (j 1).val; rw [hi.2]; omega

/-- Window 2's one block is the whole array `main_arg2`: at every point it reads the array as launched. -/
theorem iblk2_eq (c : Dev nD) (t : Fin cfg0.N) :
    (iblk m c 2 t : Vec F S256x256 .f32) = m ((c : Thread nD τ).loc main_arg2) := by
  have hi : win0_2.index t 0 = 0 ∧ win0_2.index t 1 = 0 :=
    (by decide +kernel : ∀ t : Fin grid0.N, win0_2.index t 0 = 0 ∧ win0_2.index t 1 = 0) t
  funext j
  unfold iblk
  rw [View.read_apply]
  show V m c main_arg2 _ = m (c.tc.loc main_arg2) j
  unfold V
  congr 1
  funext a
  apply Fin.ext
  match a with
  | ⟨0, _⟩ => show win0_2.index t 0 * 256 + 1 * (j 0).val = (j 0).val; rw [hi.1]; omega
  | ⟨1, _⟩ => show win0_2.index t 1 * 256 + 1 * (j 1).val = (j 1).val; rw [hi.2]; omega

/-- Window 3's one block is the whole array `main_arg3`: at every point it reads the array as launched. -/
theorem iblk3_eq (c : Dev nD) (t : Fin cfg0.N) :
    (iblk m c 3 t : Vec F S256x256 .f32) = m ((c : Thread nD τ).loc main_arg3) := by
  have hi : win0_3.index t 0 = 0 ∧ win0_3.index t 1 = 0 :=
    (by decide +kernel : ∀ t : Fin grid0.N, win0_3.index t 0 = 0 ∧ win0_3.index t 1 = 0) t
  funext j
  unfold iblk
  rw [View.read_apply]
  show V m c main_arg3 _ = m (c.tc.loc main_arg3) j
  unfold V
  congr 1
  funext a
  apply Fin.ext
  match a with
  | ⟨0, _⟩ => show win0_3.index t 0 * 256 + 1 * (j 0).val = (j 0).val; rw [hi.1]; omega
  | ⟨1, _⟩ => show win0_3.index t 1 * 256 + 1 * (j 1).val = (j 1).val; rw [hi.2]; omega

/-- The first scratch buffer's value: the rounded product of the attenuated mean features with the mean weights,
    of the whole argument arrays. -/
abbrev scrM (c : Dev nD) : Vec F S4096x256 .bf16 :=
  k0_pay2 (m ((c : Thread nD τ).loc main_arg0)) (m ((c : Thread nD τ).loc main_arg1)) (m ((c : Thread nD τ).loc main_arg2))

/-- The second scratch buffer's value: the rounded product of the twice-attenuated variance features with the
    variance weights. -/
abbrev scrS (c : Dev nD) : Vec F S4096x256 .bf16 :=
  k0_pay3 (m ((c : Thread nD τ).loc main_arg1)) (m ((c : Thread nD τ).loc main_arg3))

/-- At a point that recomputes the scratch, both buffers end at those values. -/
theorem scratch_A (c : Dev nD) (t : Fin cfg0.N) (h0 : t.val % 8 = 0) :
    (outsAt0 m c t.val t.isLt).2.2.1 = scrM m c ∧ (outsAt0 m c t.val t.isLt).2.2.2 = scrS m c := by
  rw [outsAt0_A m c t h0]
  dsimp only
  refine ⟨(KernelPieces.scratchM_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).trans ?_,
    (KernelPieces.scratchS_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).trans ?_⟩
  · rw [iblk0_eq m c t, iblk1_eq m c t, iblk2_eq m c t]
  · rw [iblk1_eq m c t, iblk3_eq m c t]

/-- After every point both scratch buffers hold the products of the whole argument arrays: by induction on the
    point, a point that does not recompute them keeping what the point before left. -/
theorem scratch_eq (c : Dev nD) : ∀ (n : ℕ) (h : n < cfg0.N),
    (outsAt0 m c n h).2.2.1 = scrM m c ∧ (outsAt0 m c n h).2.2.2 = scrS m c
  | 0, h => scratch_A m c ⟨0, h⟩ rfl
  | n + 1, h => by
    by_cases h0 : (n + 1) % 8 = 0
    · exact scratch_A m c ⟨n + 1, h⟩ h0
    · rw [outsAt0_B m c ⟨n + 1, h⟩ h0]
      dsimp only
      unfold sout0_B_0 sout0_B_1
      exact scratch_eq c n (Nat.lt_of_succ_lt h)

end Cert.Proof.KernelScratch

end
-- ==== Proof.KernelBlocks.lean ====
/-
  What every grid point leaves in its two output blocks.

  Whichever case the point is in, its first output block is the product of its row panel of the first adjacency
  matrix with the first scratch value, and its second output block the product of its row panel of the second
  adjacency matrix with the second scratch value — the scratch values being those computed from the whole argument
  arrays: a point that recomputes the scratch multiplies with what it has just stored, any other point with what the
  point before left, which is the same value.
-/
import proofs.«104746_g2000202054435738_pallasbulk_107_12_alg».proof.Proof.Gen.KernelIdeal.Value
import proofs.«104746_g2000202054435738_pallasbulk_107_12_alg».proof.Proof.KernelScratch

noncomputable section

namespace Cert.Proof.KernelBlocks

open Idealize.ShloMosaic Idealize.ShloMosaic.TcCoe Idealize.SL.Sem
open Cert.KernelIdeal Cert.KernelIdeal.Gen Cert.Proof.KernelScratch

variable {F : FTy → Type} [FloatOps F]
variable (m : (ℓ : Loc nD τ sig) → Buf (Elt F) ℓ)

/-- After point `t` the two output staging buffers hold the products of the point's adjacency panels with the
    scratch values of the whole argument arrays. -/
theorem outs_eq (c : Dev nD) (t : Fin cfg0.N) :
    (outsAt0 m c t.val t.isLt).1 = k0_pay4 (iblk m c 4 t) (scrM m c)
      ∧ (outsAt0 m c t.val t.isLt).2.1 = k0_pay5 (iblk m c 5 t) (scrS m c) := by
  by_cases h0 : t.val % 8 = 0
  · rw [outsAt0_A m c t h0]
    dsimp only
    refine ⟨(KernelPieces.outM_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).trans ?_,
      (KernelPieces.outS_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).trans ?_⟩
    · rw [iblk0_eq m c t, iblk1_eq m c t, iblk2_eq m c t]
    · rw [iblk1_eq m c t, iblk3_eq m c t]
  · have hp := scratch_eq m c (t.val - 1) (Nat.lt_of_le_of_lt (Nat.sub_le _ _) t.isLt)
    rw [outsAt0_B m c t h0]
    dsimp only
    refine ⟨(KernelPieces.outM_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_,
      (KernelPieces.outS_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_⟩
    · rw [hp.1]
    · rw [hp.2]

end Cert.Proof.KernelBlocks

end
-- ==== Proof.KernelMatmul.lean ====
/-
  The kernel's two matrix products at an index, on the extended reals.

  A product into the zero accumulator is the plain sum over the one contracted axis of the products of the operands'
  entries: entry (p, j) of a [M,K] × [K,N] product is Σ_l a[p,l] · b[l,j].  The contraction's index set has one axis;
  the sum is re-indexed by that axis's coordinate.
-/
import proofs.«104746_g2000202054435738_pallasbulk_107_12_alg».proof.Proof.Gen.KernelIdeal
import Idealize.ShloMosaic.Lib.ValueIdx
import Idealize.ShloMosaic.PureOps.Ideal.Laws

noncomputable section

namespace Cert.Proof.KernelMatmul

open Idealize.ShloMosaic Idealize.ShloMosaic.ValueIdx Cert.KernelIdeal

theorem feat_lhs0 (i : S4096x256.Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl

theorem feat_rhs1 (i : S4096x256.Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The feature-transform product ([4096,256] × [256,256]) at entry (p, j): the sum over the 256 input features. -/
theorem feat_apply {φ₁ φ₂ : FTy} (a : FVec Ideal S4096x256 φ₁) (b : FVec Ideal S256x256 φ₂) (p : Fin 4096) (j : Fin 256) :
    matmul dot_S4096x256_S256x256_S4096x256_1_0_0_1_n_n none a b (constant (F := Ideal) S4096x256 .f32 0x00000000#32) (ix2 p j)
      = ∑ l : Fin 256, a (ix2 p l) * b (ix2 l j) := by
  refine (Ideal.matmul_constant_zero_apply dot_S4096x256_S256x256_S4096x256_1_0_0_1_n_n none a b (ix2 p j)).trans ?_
  rw [← Equiv.sum_comp (contrEquiv1 dot_S4096x256_S256x256_S4096x256_1_0_0_1_n_n 256 rfl rfl).symm]
  refine Finset.sum_congr rfl fun l _ => ?_
  have hl := contrEquiv1_symm_val dot_S4096x256_S256x256_S4096x256_1_0_0_1_n_n 256 rfl rfl l
  have el : dot_S4096x256_S256x256_S4096x256_1_0_0_1_n_n.lhsIdx (ix2 p j) ((contrEquiv1 dot_S4096x256_S256x256_S4096x256_1_0_0_1_n_n 256 rfl rfl).symm l) = ix2 p l := funext fun x => Fin.ext (by
    match x with
    | ⟨0, _⟩ => exact feat_lhs0 _ _
    | ⟨1, _⟩ => exact (dot_S4096x256_S256x256_S4096x256_1_0_0_1_n_n.lhsIdx_val_of_single rfl _ _).trans hl)
  have er : dot_S4096x256_S256x256_S4096x256_1_0_0_1_n_n.rhsIdx (ix2 p j) ((contrEquiv1 dot_S4096x256_S256x256_S4096x256_1_0_0_1_n_n 256 rfl rfl).symm l) = ix2 l j := funext fun x => Fin.ext (by
    match x with
    | ⟨0, _⟩ => exact (dot_S4096x256_S256x256_S4096x256_1_0_0_1_n_n.rhsIdx_val_of_single rfl _ _).trans hl
    | ⟨1, _⟩ => exact feat_rhs1 _ _)
  rw [el, er]

theorem aggr_lhs0 (i : S256x256.Idx) (q : dot_S256x4096_S4096x256_S256x256_1_0_0_1_n_n.contr.Idx) : (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl

theorem aggr_rhs1 (i : S256x256.Idx) (q : dot_S256x4096_S4096x256_S256x256_1_0_0_1_n_n.contr.Idx) : (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- The aggregation product of one row panel ([256,4096] × [4096,256]) at entry (p, j): the sum over the 4096 nodes. -/
theorem aggr_apply {φ₁ φ₂ : FTy} (a : FVec Ideal S256x4096 φ₁) (b : FVec Ideal S4096x256 φ₂) (p : Fin 256) (j : Fin 256) :
    matmul dot_S256x4096_S4096x256_S256x256_1_0_0_1_n_n none a b (constant (F := Ideal) S256x256 .f32 0x00000000#32) (ix2 p j)
      = ∑ l : Fin 4096, a (ix2 p l) * b (ix2 l j) := by
  refine (Ideal.matmul_constant_zero_apply dot_S256x4096_S4096x256_S256x256_1_0_0_1_n_n none a b (ix2 p j)).trans ?_
  rw [← Equiv.sum_comp (contrEquiv1 dot_S256x4096_S4096x256_S256x256_1_0_0_1_n_n 4096 rfl rfl).symm]
  refine Finset.sum_congr rfl fun l _ => ?_
  have hl := contrEquiv1_symm_val dot_S256x4096_S4096x256_S256x256_1_0_0_1_n_n 4096 rfl rfl l
  have el : dot_S256x4096_S4096x256_S256x256_1_0_0_1_n_n.lhsIdx (ix2 p j) ((contrEquiv1 dot_S256x4096_S4096x256_S256x256_1_0_0_1_n_n 4096 rfl rfl).symm l) = ix2 p l := funext fun x => Fin.ext (by
    match x with
    | ⟨0, _⟩ => exact aggr_lhs0 _ _
    | ⟨1, _⟩ => exact (dot_S256x4096_S4096x256_S256x256_1_0_0_1_n_n.lhsIdx_val_of_single rfl _ _).trans hl)
  have er : dot_S256x4096_S4096x256_S256x256_1_0_0_1_n_n.rhsIdx (ix2 p j) ((contrEquiv1 dot_S256x4096_S4096x256_S256x256_1_0_0_1_n_n 4096 rfl rfl).symm l) = ix2 l j := funext fun x => Fin.ext (by
    match x with
    | ⟨0, _⟩ => exact (dot_S256x4096_S4096x256_S256x256_1_0_0_1_n_n.rhsIdx_val_of_single rfl _ _).trans hl
    | ⟨1, _⟩ => exact aggr_rhs1 _ _)
  rw [el, er]

end Cert.Proof.KernelMatmul

end
-- ==== Proof.KernelPayload.lean ====
/-
  The body's arithmetic at an index, on the extended reals.

  There every change of float format is the identity and a matrix product into the zero accumulator is the plain sum
  over the contracted axis.  So entry (k, j) of the first scratch value is Σ_l (miu[k,l] · exp(−sigma[k,l])) · Wm[l,j],
  of the second Σ_l ((sigma[k,l] · exp(−sigma[k,l])) · exp(−sigma[k,l])) · Ws[l,j], and entry (p, j) of an output block
  is Σ_k a[p,k] · s[k,j] of the point's adjacency panel a and the scratch value s.
-/
import proofs.«104746_g2000202054435738_pallasbulk_107_12_alg».proof.Proof.Spec
import proofs.«104746_g2000202054435738_pallasbulk_107_12_alg».proof.Proof.KernelMatmul
import proofs.«104746_g2000202054435738_pallasbulk_107_12_alg».proof.Proof.Gen.KernelIdeal.Skeleton
import Idealize.ShloMosaic.Lib.Pipeline.Value

noncomputable section

namespace Cert.Proof.KernelPayload

open Idealize.ShloMosaic Idealize.ShloMosaic.ValueIdx Cert.KernelIdeal Cert.KernelIdeal.Gen Cert.Proof.Spec

/-- The attenuation the body computes, at (k, l): `exp (−1 · sigma[k,l])`. -/
theorem att_apply (sg : FVec Ideal S4096x256 .f32) (k : Fin 4096) (l : Fin 256) :
    k0_pay1 (F := Ideal) sg (ix2 k l) = att sg k l := rfl

/-- The first scratch value at (k, j): the transformed mean feature. -/
theorem scrM_apply (mu sg : FVec Ideal S4096x256 .f32) (wm : FVec Ideal S256x256 .f32) (k : Fin 4096) (j : Fin 256) :
    k0_pay2 (F := Ideal) mu sg wm (ix2 k j) = innerM mu sg wm k j := by
  unfold k0_pay2
  refine (congrFun (shapeCast_self _ _) (ix2 k j)).trans ?_
  refine (KernelMatmul.feat_apply (truncf .bf16 (mulf mu (k0_pay1 sg)) bitsLt_bf16_f32) (truncf .bf16 wm bitsLt_bf16_f32) k j).trans ?_
  exact Finset.sum_congr rfl fun l _ => rfl

/-- The second scratch value at (k, j): the transformed variance feature. -/
theorem scrS_apply (sg : FVec Ideal S4096x256 .f32) (ws : FVec Ideal S256x256 .f32) (k : Fin 4096) (j : Fin 256) :
    k0_pay3 (F := Ideal) sg ws (ix2 k j) = innerS sg ws k j := by
  unfold k0_pay3
  refine (congrFun (shapeCast_self _ _) (ix2 k j)).trans ?_
  refine (KernelMatmul.feat_apply (truncf .bf16 (mulf (mulf sg (k0_pay1 sg)) (k0_pay1 sg)) bitsLt_bf16_f32) (truncf .bf16 ws bitsLt_bf16_f32) k j).trans ?_
  exact Finset.sum_congr rfl fun l _ => rfl

/-- The first output block at (p, j): the adjacency panel's row p against column j of the scratch value. -/
theorem panelM_apply (a : FVec Ideal S256x4096 .f32) (s : FVec Ideal S4096x256 .bf16) (p j : Fin 256) :
    k0_pay4 (F := Ideal) a s (ix2 p j) = ∑ k : Fin 4096, a (ix2 p k) * s (ix2 k j) := by
  unfold k0_pay4
  exact KernelMatmul.aggr_apply (truncf .bf16 a bitsLt_bf16_f32) s p j

/-- The second output block at (p, j), likewise. -/
theorem panelS_apply (a : FVec Ideal S256x4096 .f32) (s : FVec Ideal S4096x256 .bf16) (p j : Fin 256) :
    k0_pay5 (F := Ideal) a s (ix2 p j) = ∑ k : Fin 4096, a (ix2 p k) * s (ix2 k j) := by
  unfold k0_pay5
  exact KernelMatmul.aggr_apply (truncf .bf16 a bitsLt_bf16_f32) s p j

end Cert.Proof.KernelPayload

end
-- ==== Proof.KernelFlush.lean ====
/-
  What every grid point writes back, as a block of the specification's arrays.

  The two adjacency windows and the two output windows move together: at point t each has its block of 256 rows
  at row offset 256·t, all columns.  So entry (p, k) of the point's adjacency panel is entry (256·t + p, k) of the
  adjacency matrix, entry (p, j) of the output block sits at (256·t + p, j) of the result array, and the block's
  entry — the panel's row p against column j of the scratch value, summed over the 4096 nodes — is the
  specification's entry there.
-/
import proofs.«104746_g2000202054435738_pallasbulk_107_12_alg».proof.Proof.Spec
import proofs.«104746_g2000202054435738_pallasbulk_107_12_alg».proof.Proof.KernelBlocks
import proofs.«104746_g2000202054435738_pallasbulk_107_12_alg».proof.Proof.KernelPayload

noncomputable section

namespace Cert.Proof.KernelFlush

open Idealize.ShloMosaic Idealize.ShloMosaic.TcCoe Idealize.SL.Sem Idealize.ShloMosaic.ValueIdx
open Cert.KernelIdeal Cert.KernelIdeal.Gen Cert.Proof.Spec Cert.Proof.KernelScratch

/-- The printed index maps, decided over the sixteen grid points: the adjacency and output windows' block index at
    point `t` is (t, 0). -/
theorem idx_facts : ∀ t : Fin cfg0.N, win0_4.index t 0 = t.val ∧ win0_4.index t 1 = 0
    ∧ win0_5.index t 0 = t.val ∧ win0_5.index t 1 = 0
    ∧ win0_6.index t 0 = t.val ∧ win0_6.index t 1 = 0
    ∧ win0_7.index t 0 = t.val ∧ win0_7.index t 1 = 0 :=
  (by decide +kernel : ∀ t : Fin grid0.N, _)

/-- Row `p` of point `t`'s row panel, as a row of the whole array. -/
abbrev row (t : Fin cfg0.N) (p : Fin 256) : Fin 4096 :=
  ⟨256 * t.val + p.val, by have h1 := t.isLt; have hN : cfg0.N = 16 := N_0; have h2 := p.isLt; omega⟩

section AnyInstance
variable {F : FTy → Type} [FloatOps F]
variable (m : (ℓ : Loc nD τ sig) → Buf (Elt F) ℓ)

/-- Entry (p, k) of window 4's block at point `t` is entry (256·t + p, k) of `main_arg4`. -/
theorem iblk4_apply (c : Dev nD) (t : Fin cfg0.N) (p : Fin 256) (k : Fin 4096) :
    (iblk m c 4 t : Vec F S256x4096 .f32) (ix2 p k) = m ((c : Thread nD τ).loc main_arg4) (ix2 (row t p) k) := by
  have e0 := (idx_facts t).1
  have e1 := (idx_facts t).2.1
  unfold iblk
  rw [View.read_apply]
  show V m c main_arg4 _ = m (c.tc.loc main_arg4) _
  unfold V
  congr 1
  funext a
  apply Fin.ext
  match a with
  | ⟨0, _⟩ => show win0_4.index t 0 * 256 + 1 * p.val = 256 * t.val + p.val; rw [e0]; omega
  | ⟨1, _⟩ => show win0_4.index t 1 * 4096 + 1 * k.val = k.val; rw [e1]; omega

/-- Entry (p, k) of window 5's block at point `t` is entry (256·t + p, k) of `main_arg5`. -/
theorem iblk5_apply (c : Dev nD) (t : Fin cfg0.N) (p : Fin 256) (k : Fin 4096) :
    (iblk m c 5 t : Vec F S256x4096 .f32) (ix2 p k) = m ((c : Thread nD τ).loc main_arg5) (ix2 (row t p) k) := by
  have e0 := (idx_facts t).2.2.1
  have e1 := (idx_facts t).2.2.2.1
  unfold iblk
  rw [View.read_apply]
  show V m c main_arg5 _ = m (c.tc.loc main_arg5) _
  unfold V
  congr 1
  funext a
  apply Fin.ext
  match a with
  | ⟨0, _⟩ => show win0_5.index t 0 * 256 + 1 * p.val = 256 * t.val + p.val; rw [e0]; omega
  | ⟨1, _⟩ => show win0_5.index t 1 * 4096 + 1 * k.val = k.val; rw [e1]; omega

end AnyInstance

/-- An output block's entry (p, j), its panel read where the block's row sits in the adjacency matrix, is the
    specification's first result at that row. -/
theorem blockM_apply (mu sg : Arr 4096 256) (wm : Arr 256 256) (a1 : Arr 4096 4096) (x4 : FVec Ideal S256x4096 .f32)
    (i : Fin 4096) (p j : Fin 256) (hx : ∀ k : Fin 4096, x4 (ix2 p k) = a1 (ix2 i k)) :
    k0_pay4 (F := Ideal) x4 (k0_pay2 (F := Ideal) mu sg wm) (ix2 p j) = outM mu sg wm a1 (ix2 i j) := by
  refine (KernelPayload.panelM_apply x4 (k0_pay2 (F := Ideal) mu sg wm) p j).trans ?_
  show _ = ∑ k : Fin 4096, a1 (ix2 i k) * innerM mu sg wm k j
  refine Finset.sum_congr rfl fun k _ => ?_
  rw [hx k]
  exact congrArg (a1 (ix2 i k) * ·) (KernelPayload.scrM_apply mu sg wm k j)

/-- … and the second output block's entry the specification's second result. -/
theorem blockS_apply (sg : Arr 4096 256) (ws : Arr 256 256) (a2 : Arr 4096 4096) (x5 : FVec Ideal S256x4096 .f32)
    (i : Fin 4096) (p j : Fin 256) (hx : ∀ k : Fin 4096, x5 (ix2 p k) = a2 (ix2 i k)) :
    k0_pay5 (F := Ideal) x5 (k0_pay3 (F := Ideal) sg ws) (ix2 p j) = outS sg ws a2 (ix2 i j) := by
  refine (KernelPayload.panelS_apply x5 (k0_pay3 (F := Ideal) sg ws) p j).trans ?_
  show _ = ∑ k : Fin 4096, a2 (ix2 i k) * innerS sg ws k j
  refine Finset.sum_congr rfl fun k _ => ?_
  rw [hx k]
  exact congrArg (a2 (ix2 i k) * ·) (KernelPayload.scrS_apply sg ws k j)

/-- What point `t` writes back to the first result array is block `t` of the specification's array. -/
theorem flushedM_eq (m : (ℓ : Loc nD τ sig) → Buf (Elt Ideal) ℓ) (c : Dev nD) (t : Fin cfg0.N) :
    (dats m 0 c).flushed 6 t = ((cfg0.win 6).blk t).view.read (Elt Ideal) (outM (m ((c : Thread nD τ).loc main_arg0)) (m ((c : Thread nD τ).loc main_arg1)) (m ((c : Thread nD τ).loc main_arg2)) (m ((c : Thread nD τ).loc main_arg4))) := by
  rw [Value.flushed6, (KernelBlocks.outs_eq m c t).1]
  have e0 := (idx_facts t).2.2.2.2.1
  have e1 := (idx_facts t).2.2.2.2.2.1
  refine funext fun (y : S256x256.Idx) => ?_
  obtain ⟨p, j, rfl⟩ : ∃ (p : Fin 256) (j : Fin 256), y = ix2 p j := ⟨y 0, y 1, eq_ix2 y⟩
  rw [View.read_apply]
  have he : ((cfg0.win 6).blk t).view.emb (ix2 p j) = ix2 (row t p) j := by
    funext a
    apply Fin.ext
    match a with
    | ⟨0, _⟩ => show win0_6.index t 0 * 256 + 1 * p.val = 256 * t.val + p.val; rw [e0]; omega
    | ⟨1, _⟩ => show win0_6.index t 1 * 256 + 1 * j.val = j.val; rw [e1]; omega
  rw [he]
  exact blockM_apply (m ((c : Thread nD τ).loc main_arg0)) (m ((c : Thread nD τ).loc main_arg1)) (m ((c : Thread nD τ).loc main_arg2)) (m ((c : Thread nD τ).loc main_arg4)) (iblk m c 4 t) (row t p) p j (fun k => iblk4_apply m c t p k)

/-- What point `t` writes back to the second result array is block `t` of the specification's array. -/
theorem flushedS_eq (m : (ℓ : Loc nD τ sig) → Buf (Elt Ideal) ℓ) (c : Dev nD) (t : Fin cfg0.N) :
    (dats m 0 c).flushed 7 t = ((cfg0.win 7).blk t).view.read (Elt Ideal) (outS (m ((c : Thread nD τ).loc main_arg1)) (m ((c : Thread nD τ).loc main_arg3)) (m ((c : Thread nD τ).loc main_arg5))) := by
  rw [Value.flushed7, (KernelBlocks.outs_eq m c t).2]
  have e0 := (idx_facts t).2.2.2.2.2.2.1
  have e1 := (idx_facts t).2.2.2.2.2.2.2
  refine funext fun (y : S256x256.Idx) => ?_
  obtain ⟨p, j, rfl⟩ : ∃ (p : Fin 256) (j : Fin 256), y = ix2 p j := ⟨y 0, y 1, eq_ix2 y⟩
  rw [View.read_apply]
  have he : ((cfg0.win 7).blk t).view.emb (ix2 p j) = ix2 (row t p) j := by
    funext a
    apply Fin.ext
    match a with
    | ⟨0, _⟩ => show win0_7.index t 0 * 256 + 1 * p.val = 256 * t.val + p.val; rw [e0]; omega
    | ⟨1, _⟩ => show win0_7.index t 1 * 256 + 1 * j.val = j.val; rw [e1]; omega
  rw [he]
  exact blockS_apply (m ((c : Thread nD τ).loc main_arg1)) (m ((c : Thread nD τ).loc main_arg3)) (m ((c : Thread nD τ).loc main_arg5)) (iblk m c 5 t) (row t p) p j (fun k => iblk5_apply m c t p k)

end Cert.Proof.KernelFlush

end
-- ==== Proof.KernelRun.lean ====
/-
  The kernel program's run, read as the specification's two arrays.

  The sixteen grid points' output blocks tile each result array by rows: row r lies in the block of point r / 256.
  Every point writes back the specification's block, so after the run each result array is the specification's
  array; the six argument arrays are as launched.
-/
import proofs.«104746_g2000202054435738_pallasbulk_107_12_alg».proof.Proof.Spec
import proofs.«104746_g2000202054435738_pallasbulk_107_12_alg».proof.Proof.KernelFlush

noncomputable section

namespace Cert.Proof.KernelRun

open Idealize.ShloMosaic Idealize.ShloMosaic.TcCoe Idealize.SL.Sem Cert.KernelIdeal
open Cert.KernelIdeal.Gen Cert.Proof.Spec

/-- An index of the first result array is in point `t`'s block iff each coordinate is in the block's range on its axis. -/
theorem mem_blk6 (t : Fin cfg0.N) (i : S4096x256.Idx) :
    i ∈ ((cfg0.win 6).blk t).view.set ↔ ∀ a : Fin 2, win0_6.index t a * S256x256.size a ≤ (i a).val ∧ (i a).val < win0_6.index t a * S256x256.size a + S256x256.size a := by
  show i ∈ ((View.whole main_v0_0).slice (win0_6.rect t)).set ↔ _
  rw [View.set_slice_whole, Rect.mem_set_unit]
  exact Iff.rfl

/-- Every index of the first result array is in the block of the point its row selects. -/
theorem cover6 (i : S4096x256.Idx) :
    ∃ t : Fin cfg0.N, (cfg0.win 6).flush t = true ∧ i ∈ ((cfg0.win 6).blk t).view.set := by
  have hi0 : (i 0).val < 4096 := (i 0).isLt
  have hi1 : (i 1).val < 256 := (i 1).isLt
  have hN : cfg0.N = 16 := N_0
  obtain ⟨t, ht⟩ : ∃ t : Fin cfg0.N, t.val = (i 0).val / 256 := ⟨⟨(i 0).val / 256, by omega⟩, rfl⟩
  have e0 := (KernelFlush.idx_facts t).2.2.2.2.1
  have e1 := (KernelFlush.idx_facts t).2.2.2.2.2.1
  refine ⟨t, flush0_6 t, ?_⟩
  rw [mem_blk6]
  intro a
  match a with
  | ⟨0, _⟩ => show win0_6.index t 0 * 256 ≤ (i 0).val ∧ (i 0).val < win0_6.index t 0 * 256 + 256; rw [e0, ht]; omega
  | ⟨1, _⟩ => show win0_6.index t 1 * 256 ≤ (i 1).val ∧ (i 1).val < win0_6.index t 1 * 256 + 256; rw [e1]; omega

/-- So the first result array ends holding the specification's array. -/
theorem final6 (m : (ℓ : Loc nD τ sig) → Buf (Elt Ideal) ℓ) (c : Dev nD) :
    (dats m 0 c).arrAt 6 cfg0.N = (outM (m ((c : Thread nD τ).loc main_arg0)) (m ((c : Thread nD τ).loc main_arg1)) (m ((c : Thread nD τ).loc main_arg2)) (m ((c : Thread nD τ).loc main_arg4))) :=
  (dats m 0 c).arrAt_eq_of_cover 6 (outM (m ((c : Thread nD τ).loc main_arg0)) (m ((c : Thread nD τ).loc main_arg1)) (m ((c : Thread nD τ).loc main_arg2)) (m ((c : Thread nD τ).loc main_arg4))) (fun t _ => KernelFlush.flushedM_eq m c t) cover6

/-- An index of the second result array is in point `t`'s block iff each coordinate is in the block's range on its axis. -/
theorem mem_blk7 (t : Fin cfg0.N) (i : S4096x256.Idx) :
    i ∈ ((cfg0.win 7).blk t).view.set ↔ ∀ a : Fin 2, win0_7.index t a * S256x256.size a ≤ (i a).val ∧ (i a).val < win0_7.index t a * S256x256.size a + S256x256.size a := by
  show i ∈ ((View.whole main_v0_1).slice (win0_7.rect t)).set ↔ _
  rw [View.set_slice_whole, Rect.mem_set_unit]
  exact Iff.rfl

/-- Every index of the second result array is in the block of the point its row selects. -/
theorem cover7 (i : S4096x256.Idx) :
    ∃ t : Fin cfg0.N, (cfg0.win 7).flush t = true ∧ i ∈ ((cfg0.win 7).blk t).view.set := by
  have hi0 : (i 0).val < 4096 := (i 0).isLt
  have hi1 : (i 1).val < 256 := (i 1).isLt
  have hN : cfg0.N = 16 := N_0
  obtain ⟨t, ht⟩ : ∃ t : Fin cfg0.N, t.val = (i 0).val / 256 := ⟨⟨(i 0).val / 256, by omega⟩, rfl⟩
  have e0 := (KernelFlush.idx_facts t).2.2.2.2.2.2.1
  have e1 := (KernelFlush.idx_facts t).2.2.2.2.2.2.2
  refine ⟨t, flush0_7 t, ?_⟩
  rw [mem_blk7]
  intro a
  match a with
  | ⟨0, _⟩ => show win0_7.index t 0 * 256 ≤ (i 0).val ∧ (i 0).val < win0_7.index t 0 * 256 + 256; rw [e0, ht]; omega
  | ⟨1, _⟩ => show win0_7.index t 1 * 256 ≤ (i 1).val ∧ (i 1).val < win0_7.index t 1 * 256 + 256; rw [e1]; omega

/-- So the second result array ends holding the specification's array. -/
theorem final7 (m : (ℓ : Loc nD τ sig) → Buf (Elt Ideal) ℓ) (c : Dev nD) :
    (dats m 0 c).arrAt 7 cfg0.N = (outS (m ((c : Thread nD τ).loc main_arg1)) (m ((c : Thread nD τ).loc main_arg3)) (m ((c : Thread nD τ).loc main_arg5))) :=
  (dats m 0 c).arrAt_eq_of_cover 7 (outS (m ((c : Thread nD τ).loc main_arg1)) (m ((c : Thread nD τ).loc main_arg3)) (m ((c : Thread nD τ).loc main_arg5))) (fun t _ => KernelFlush.flushedS_eq m c t) cover7

/-- The kernel program's run on the extended reals: every weakly fair execution ends with the two result arrays at
    the specification's arrays of the launch contents and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = Cert.Proof.Spec.outM (m ((c : Thread nD τ).loc main_arg0)) (m ((c : Thread nD τ).loc main_arg1)) (m ((c : Thread nD τ).loc main_arg2)) (m ((c : Thread nD τ).loc main_arg4))
      ∧ r.2.mem ((c : Thread nD τ).loc main_v0_1) = Cert.Proof.Spec.outS (m ((c : Thread nD τ).loc main_arg1)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Cert.KernelIdeal.Value.run_blocks m ρ)

end Cert.Proof.KernelRun

end
-- ==== Proof.RefRegion0.lean ====
/-
  The first stage of the two-stage program — the feature transform — taken by itself, at whatever the arrays hold when the
  stage is entered.

  The stage walks the 4096 nodes in eight panels of 512 rows.  At a panel it reads that panel of the mean and of the
  variance features (512×256 each) and the two whole 256×256 weight matrices, and writes one 512×512 block of the
  side-by-side result: columns 0–255 the attenuated mean features times the first weight matrix, columns 256–511 the
  twice-attenuated variance features times the second.  This module states what the stage's one store leaves in the
  result's block as a function of the four blocks read (`out0_4`), proves that the stage's body does exactly that
  on whole buffers (`sound_kernel0`), and packages it as the per-panel proof data (`dat0`) with its obligation
  (`body_obligation0`).  Nothing here depends on the float instance.
-/
import proofs.«104746_g2000202054435738_pallasbulk_107_12_alg».proof.Proof.Gen.ReferenceIdeal.Launch
import proofs.«104746_g2000202054435738_pallasbulk_107_12_alg».proof.Proof.Gen.ReferenceIdeal.Skeleton
import proofs.«104746_g2000202054435738_pallasbulk_107_12_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Reg0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the arrays hold when the stage is entered: a parameter, fixed by whoever runs the stage
variable (V : (c : Dev nD) → (b : Ref sig .tc) → Buf (Elt F) ((c : Thread nD τ).loc b))

/-! ## The blocks read -/

/-- The block of array `w` that panel `t` works on, read off the array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mean features' buffer holds panel `t`'s block when the body runs at `t`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The variance features' buffer holds panel `t`'s block when the body runs at `t`. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The first weight matrix is read once, at the first panel; its block is the whole matrix at every panel, so the
    buffer still holds the block of the panel the body runs at. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same for the second weight matrix. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S512x256 := Rect.unit (s := S512x256) ![0, 0] S512x256.size inb_S512x256_S512x256_0_0
abbrev r0_1 : Rect S256x256 := Rect.unit (s := S256x256) ![0, 0] S256x256.size inb_S256x256_S256x256_0_0
abbrev r0_2 : Rect S512x512 := Rect.unit (s := S512x512) ![0, 0] S512x512.size inb_S512x512_S512x512_0_0

/-! ## What the body leaves in the result's block -/

/-- The result's 512×512 block after the body, from the four blocks read: the one store, of the two products side by side. -/
def out0_4 (x0 x1 : Vec F S512x256 .f32) (x2 x3 : Vec F S256x256 .f32) : Vec F S512x512 .f32 :=
  View.canon [⟨r0_2, k0_pay1 (View.ld x0 r0_0) (View.ld x1 r0_0) (View.ld x2 r0_1) (View.ld x3 r0_1)⟩]

/-- The one store covers the block. -/
theorem cover0_4 (p0 : Vec F S512x512 .f32) (y : S512x512.Idx) :
    ∃ pc ∈ ([⟨r0_2, p0⟩] : List (View.Piece (Elt F) S512x512 .f32)), y ∈ pc.1.set :=
  View.cover_of_tiled [⟨r0_2, p0⟩] S512x512.size (by rfl) y

/-! ## The body's triple -/

set_option maxHeartbeats 1000000 in
/-- The body on whole buffers — the four inputs' at contents `x0 … x3`, the result's at anything — runs to the
    continuation with the inputs' as they were and the result's at `out0_4` of the inputs'. -/
theorem sound_kernel0 (c : Dev nD) (E : Set ℕ) (i : grid0.Coords)
    (arg1 : Memref sig .tc .vmem S512x256 .f32) (harg1 : arg1.IsWhole) (arg2 : Memref sig .tc .vmem S512x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S512x512 .f32) (harg5 : arg5.IsWhole)
    (x0 x1 : Vec F S512x256 .f32) (x2 x3 : Vec F S256x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__feature_transform_kernel i arg1 harg1 arg2 harg2 arg3 harg3 arg4 harg4 arg5 harg5) K := by
  simp only [cc0__feature_transform_kernel_eq_skeleton]; unfold cc0__feature_transform_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The stage's proof data -/

/-- Per panel `t`: each input's buffer keeps its block, the result's buffer holds `out0_4` of the four input blocks;
    the arrays are as the stage finds them; nothing else of the core is touched, nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, array by array. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's buffer holds its block at every panel. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic panel -/

/-- What the body is called with at panel `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any panel: the inputs' buffers hold their blocks, so `sound_kernel0` applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The stage's body obligation, at every panel. -/
theorem body_obligation0 (c : Dev nD) : BodyObligation (dat0 (F := F) V c) (defs₀ (F := F)) Variants.none () Set.univ := fun t => by
  rw [bigSep_W0, bigSep_W0]
  exact sound_body0 V c t

end Cert.ReferenceIdeal.Reg0

end
-- ==== Proof.RefReg1Base.lean ====
/-
  The aggregation stage of the two-stage program (its second grid, 16 row panels × 8 column blocks), part 1: what its
  body is handed and what it branches on.

  At point t = 8·i + q the body reads the (i, q) blocks of the two adjacency matrices (256 × 512 each) and block q
  (512 rows) of the transformed features; two 256 × 256 accumulators live in scratch memory across the points of
  a row panel.  The body zeroes them when q = 0, adds this block's two products to them at every point, and copies
  them side by side into the output block (row panel i) when q = 7; at the other points the output's staging buffer
  is left as found.  Here: the blocks as read off the arrays the stage is entered with, the two branch conditions in
  closed form over the grid (q = 0, q = 7), and the stage's invariant with the two accumulators named apart from
  the other scratch memory.
-/
import proofs.«104746_g2000202054435738_pallasbulk_107_12_alg».proof.Proof.Gen.ReferenceIdeal.Launch
import proofs.«104746_g2000202054435738_pallasbulk_107_12_alg».proof.Proof.Gen.ReferenceIdeal.Skeleton
import proofs.«104746_g2000202054435738_pallasbulk_107_12_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the stage is entered: every statement here is at this parameter
variable (V : (c : Dev nD) → (b : Ref sig .tc) → Buf (Elt F) ((c : Thread nD τ).loc b))

/-! ## The blocks -/

/-- Window `w`'s block at point `t`, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions -/

/-- "this is the row panel's first column block" (q = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- "this is the row panel's last column block" (q = 7). -/
abbrev cond1_1 (i : grid1.Coords) : Prop := k1_cond2 i = 1#1
/-- It holds exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The memrefs the body is called with -/

abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x512 .f32 := win1_3.stage (cfg1.slots t 3)
abbrev hs1_3 (t : Fin cfg1.N) : (ms1_3 t).IsWhole := hstage1_3 ((cfg1.slots t 3).cast nbuf1_3)
/-- The two accumulators: whole scratch buffers of the kernel's own. -/
abbrev scM1_0 : Memref sig .tc .vmem S256x256 .f32 := Memref.whole cc1_scratch0
abbrev scM1_1 : Memref sig .tc .vmem S256x256 .f32 := Memref.whole cc1_scratch1
abbrev VS1_0 : View sig .tc .vmem S256x256 .f32 := scM1_0.view
abbrev VS1_1 : View sig .tc .vmem S256x256 .f32 := scM1_1.view
/-- One staging buffer of the output window, through which its contents are stated (the choice does not matter for a
    covered buffer). -/
abbrev VO1_3 : View sig .tc .vmem S256x512 .f32 := (Memref.whole cc1_stg3_0 : Memref sig .tc .vmem S256x512 .f32).view

/-! ## The invariant, the accumulators apart -/

/-- The scratch memory the stage does not use (the first stage's staging buffers), each buffer at some contents, and
    the generator register at some state. -/
def RestS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ r, prngReg c r))

/-- The class invariant hands over the two accumulators at some contents, and the rest. -/
theorem PhiA1_out (c : Dev nD) :
    (Pipeline.ΦA spec1 c : sProp 𝕄) ⊢ iprop((∃ d, owns (c : Thread nD τ) scM1_0 fullShare d) ∗ (∃ d, owns (c : Thread nD τ) scM1_1 fullShare d) ∗ RestS c) := by
  unfold Pipeline.ΦA RestS; rw [scopedRest1_eq]; simp only [scM1_0, scM1_1, owns_whole]
  iintro ⟨⟨H0, H1, H2, H3, H4, H5, H6, H7, H8, H9⟩, Hg⟩
  isplitl [H8]; · iexact H8
  isplitl [H9]; · iexact H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hg

/-- … and takes them back. -/
theorem PhiA1_in (c : Dev nD) :
    iprop((∃ d, owns (c : Thread nD τ) scM1_0 fullShare d) ∗ (∃ d, owns (c : Thread nD τ) scM1_1 fullShare d) ∗ RestS c) ⊢ (Pipeline.ΦA spec1 c : sProp 𝕄) := by
  unfold Pipeline.ΦA RestS; rw [scopedRest1_eq]; simp only [scM1_0, scM1_1, owns_whole]
  iintro ⟨H8, H9, H0, H1, H2, H3, H4, H5, H6, H7, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg

end Cert.ReferenceIdeal.Reg1

end
-- ==== Proof.RefReg1RunA.lean ====
/-
  The aggregation body run whole at a row panel's FIRST column block (q = 0, not the last): both accumulators are
  zeroed, then each has this block's product added; the output's staging buffer is not touched.  The run is a
  pair: the list of pieces each accumulator ends with (last store first), and the proof that from the staging
  buffers held whole the body runs to its end leaving exactly those pieces written.
-/
import proofs.«104746_g2000202054435738_pallasbulk_107_12_alg».proof.Proof.RefReg1Base

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (q = 0): the inputs' buffers at `x0 x1 x2`, the output's at any `x3` (handed back as found), the accumulators at
    anything; they end with the pieces `LS0`, `LS1` written. -/
noncomputable def kernelRun1_A (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i)
    (x0 : Vec F S256x512 .f32) (x1 : Vec F S256x512 .f32) (x2 : Vec F S512x512 .f32) :
    Σ' (LS0 : List (View.Piece (Elt F) S256x256 .f32)), { LS1 : List (View.Piece (Elt F) S256x256 .f32) //
      ∀ (x3 : Vec F S256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨?_, ?_, fun x3 E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact H7

end Cert.ReferenceIdeal.Reg1

end
-- ==== Proof.RefReg1RunB.lean ====
/-
  The aggregation body run whole at a MIDDLE column block of a row panel (0 < q < 7): each accumulator, holding the
  partial sums of the blocks before (`xs0`, `xs1`), has this block's product added; the output's staging buffer is
  not touched.
-/
import proofs.«104746_g2000202054435738_pallasbulk_107_12_alg».proof.Proof.RefReg1RunA

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (0 < q < 7): the accumulators enter at `xs0`, `xs1` and end with the pieces `LS0`, `LS1` written. -/
noncomputable def kernelRun1_B (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i)
    (x0 : Vec F S256x512 .f32) (x1 : Vec F S256x512 .f32) (x2 : Vec F S512x512 .f32) (xs0 : Vec F S256x256 .f32) (xs1 : Vec F S256x256 .f32) :
    Σ' (LS0 : List (View.Piece (Elt F) S256x256 .f32)), { LS1 : List (View.Piece (Elt F) S256x256 .f32) //
      ∀ (x3 : Vec F S256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨?_, ?_, fun x3 E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%f3, %hf3, H3⟩, ⟨%fs0, %hfs0, H6⟩, ⟨%fs1, %hfs1, H7⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact H7

end Cert.ReferenceIdeal.Reg1

end
-- ==== Proof.RefReg1RunC.lean ====
/-
  The aggregation body run whole at a row panel's LAST column block (q = 7, not the first): each accumulator has this
  block's product added, and then the two accumulators are copied side by side into the output's staging buffer
  (columns 0–255 and 256–511), which covers it.
-/
import proofs.«104746_g2000202054435738_pallasbulk_107_12_alg».proof.Proof.RefReg1RunB

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (q = 7): the accumulators enter at `xs0`, `xs1`; the output's buffer, at anything, ends with the pieces `L3`
    written, the accumulators with `LS0`, `LS1`. -/
noncomputable def kernelRun1_C (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i)
    (x0 : Vec F S256x512 .f32) (x1 : Vec F S256x512 .f32) (x2 : Vec F S512x512 .f32) (xs0 : Vec F S256x256 .f32) (xs1 : Vec F S256x256 .f32) :
    Σ' (L3 : List (View.Piece (Elt F) S256x512 .f32)), Σ' (LS0 : List (View.Piece (Elt F) S256x256 .f32)), { LS1 : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨?_, ?_, ?_, fun E K => ?run⟩
  case run =>
    simp only [cc1__aggregate_kernel_eq_skeleton]; unfold cc1__aggregate_kernel_skel
    unfold owns
    iintro ⟨⟨%f0, %hf0, H0⟩, ⟨%f1, %hf1, H1⟩, ⟨%f2, %hf2, H2⟩, ⟨%d3, %f3, -, H3⟩, ⟨%fs0, %hfs0, H6⟩, ⟨%fs1, %hfs1, H7⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]; · iexists _; iexact H6
    iexists _; iexact H7

end Cert.ReferenceIdeal.Reg1

end
-- ==== Proof.RefRegion1.lean ====
/-
  The aggregation stage, part 2: what the accumulators and the output's staging buffer hold after every point, the
  stage's proof data, and the body's obligation at every point.

  After point t = 8·i + q the two accumulators hold what the run of that point's case leaves in them — at q = 0 a
  function of the point's blocks alone, afterwards of the blocks and of what point t − 1 left (`outsAt1`: the
  recursion over the points).  The output's staging buffer is written only at q = 7, where the two accumulators,
  copied side by side, cover it; at every other point the body hands the buffer back as it found it.  The
  invariant between points is: the two accumulators at `outsAt1`'s contents (before the first point: at anything),
  the scratch memory of the other stage and the generator register at something.
-/
import proofs.«104746_g2000202054435738_pallasbulk_107_12_alg».proof.Proof.RefReg1RunC

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The cases' conditions at a point, from the point's residue mod 8 -/

theorem hA0 (t : Fin cfg1.N) (h0 : t.val % 8 = 0) : cond1_0 (grid1.coords t) := (hcond1_0 t).mpr h0
theorem hA1 (t : Fin cfg1.N) (h0 : t.val % 8 = 0) : ¬cond1_1 (grid1.coords t) := fun h => by have := (hcond1_1 t).mp h; omega
theorem hB0 (t : Fin cfg1.N) (h0 : ¬t.val % 8 = 0) : ¬cond1_0 (grid1.coords t) := fun h => h0 ((hcond1_0 t).mp h)
theorem hB1 (t : Fin cfg1.N) (h7 : ¬t.val % 8 = 7) : ¬cond1_1 (grid1.coords t) := fun h => h7 ((hcond1_1 t).mp h)
theorem hC0 (t : Fin cfg1.N) (h7 : t.val % 8 = 7) : ¬cond1_0 (grid1.coords t) := fun h => by have := (hcond1_0 t).mp h; omega
theorem hC1 (t : Fin cfg1.N) (h7 : t.val % 8 = 7) : cond1_1 (grid1.coords t) := (hcond1_1 t).mpr h7

/-- The output window is idle (its buffer handed back as found) exactly off the points ≡ 7 (mod 8). -/
theorem hidle1_3 : ∀ t : Fin cfg1.N, cfg1.idle 3 (cfg1.grid.coords t) = true ↔ ¬t.val % 8 = 7 :=
  (by decide +kernel : ∀ t : Fin grid1.N, idle1 3 (grid1.coords t) = true ↔ ¬t.val % 8 = 7)
theorem idle3_true (t : Fin cfg1.N) (h7 : ¬t.val % 8 = 7) : cfg1.idle 3 (cfg1.grid.coords t) = true := (hidle1_3 t).mpr h7
theorem idle3_false (t : Fin cfg1.N) (h7 : t.val % 8 = 7) : cfg1.idle 3 (cfg1.grid.coords t) = false := by
  cases h : cfg1.idle 3 (cfg1.grid.coords t)
  · rfl
  · exact absurd h7 ((hidle1_3 t).mp h)
theorem idle3_true' (t : Fin cfg1.N) (h7 : ¬t.val % 8 = 7) : idle1 3 (grid1.coords t) = true := idle3_true t h7
theorem idle3_false' (t : Fin cfg1.N) (h7 : t.val % 8 = 7) : idle1 3 (grid1.coords t) = false := idle3_false t h7
theorem flush3_false (t : Fin cfg1.N) (h7 : ¬t.val % 8 = 7) : (cfg1.win 3).flush t = false := by
  cases h : (cfg1.win 3).flush t
  · rfl
  · exact absurd ((flush1_3 t).mp h) h7

/-! ## The pieces cover their buffers -/

theorem scover1_A_0 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i) (x0 : Vec F S256x512 .f32) (x1 : Vec F S256x512 .f32) (x2 : Vec F S512x512 .f32) (y : S256x256.Idx) :
    ∃ pc ∈ (kernelRun1_A c i arg2 harg2 arg3 harg3 arg4 harg4 arg5 harg5 arg6 harg6 arg7 harg7 hc0 hc1 x0 x1 x2).1, y ∈ pc.1.set :=
  View.cover_of_tiledL (kernelRun1_A c i arg2 harg2 arg3 harg3 arg4 harg4 arg5 harg5 arg6 harg6 arg7 harg7 hc0 hc1 x0 x1 x2).1 S256x256.size (by sl_kernel_rfl) y
theorem scover1_A_1 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (hc0 : cond1_0 i) (hc1 : ¬cond1_1 i) (x0 : Vec F S256x512 .f32) (x1 : Vec F S256x512 .f32) (x2 : Vec F S512x512 .f32) (y : S256x256.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S256x256.size (by sl_kernel_rfl) y
theorem scover1_B_0 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i) (x0 : Vec F S256x512 .f32) (x1 : Vec F S256x512 .f32) (x2 : Vec F S512x512 .f32) (xs0 : Vec F S256x256 .f32) (xs1 : Vec F S256x256 .f32) (y : S256x256.Idx) :
    ∃ pc ∈ (kernelRun1_B c i arg2 harg2 arg3 harg3 arg4 harg4 arg5 harg5 arg6 harg6 arg7 harg7 hc0 hc1 x0 x1 x2 xs0 xs1).1, y ∈ pc.1.set :=
  View.cover_of_tiledL (kernelRun1_B c i arg2 harg2 arg3 harg3 arg4 harg4 arg5 harg5 arg6 harg6 arg7 harg7 hc0 hc1 x0 x1 x2 xs0 xs1).1 S256x256.size (by sl_kernel_rfl) y
theorem scover1_B_1 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : ¬cond1_1 i) (x0 : Vec F S256x512 .f32) (x1 : Vec F S256x512 .f32) (x2 : Vec F S512x512 .f32) (xs0 : Vec F S256x256 .f32) (xs1 : Vec F S256x256 .f32) (y : S256x256.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S256x256.size (by sl_kernel_rfl) y
theorem cover1_C_3 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i) (x0 : Vec F S256x512 .f32) (x1 : Vec F S256x512 .f32) (x2 : Vec F S512x512 .f32) (xs0 : Vec F S256x256 .f32) (xs1 : Vec F S256x256 .f32) (y : S256x512.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S256x256.size (by sl_kernel_rfl) y
theorem scover1_C_0 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i) (x0 : Vec F S256x512 .f32) (x1 : Vec F S256x512 .f32) (x2 : Vec F S512x512 .f32) (xs0 : Vec F S256x256 .f32) (xs1 : Vec F S256x256 .f32) (y : S256x256.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S256x256.size (by sl_kernel_rfl) y
theorem scover1_C_1 (c : Dev nD) (i : grid1.Coords) (arg2 : Memref sig .tc .vmem S256x512 .f32) (harg2 : arg2.IsWhole) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (hc0 : ¬cond1_0 i) (hc1 : cond1_1 i) (x0 : Vec F S256x512 .f32) (x1 : Vec F S256x512 .f32) (x2 : Vec F S512x512 .f32) (xs0 : Vec F S256x256 .f32) (xs1 : Vec F S256x256 .f32) (y : S256x256.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S256x256.size (by sl_kernel_rfl) y

/-! ## What each case leaves, at a point -/

/-- What a row panel's first point leaves in the first / second accumulator: its pieces read back. -/
def sA0 (c : Dev nD) (t : Fin cfg1.N) (h0 : t.val % 8 = 0) : Vec F S256x256 .f32 :=
  VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) (hA0 t h0) (hA1 t h0) (iblk1 V c 0 t) (iblk1 V c 1 t) (iblk1 V c 2 t)).1)
def sA1 (c : Dev nD) (t : Fin cfg1.N) (h0 : t.val % 8 = 0) : Vec F S256x256 .f32 :=
  VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) (hA0 t h0) (hA1 t h0) (iblk1 V c 0 t) (iblk1 V c 1 t) (iblk1 V c 2 t)).2.1)
/-- What a middle point leaves in them, over what the point before left (`xs0`, `xs1`). -/
def sB0 (c : Dev nD) (t : Fin cfg1.N) (h0 : ¬t.val % 8 = 0) (h7 : ¬t.val % 8 = 7) (xs0 : Vec F S256x256 .f32) (xs1 : Vec F S256x256 .f32) : Vec F S256x256 .f32 :=
  VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (hB0 t h0) (hB1 t h7) (iblk1 V c 0 t) (iblk1 V c 1 t) (iblk1 V c 2 t) xs0 xs1).1)
def sB1 (c : Dev nD) (t : Fin cfg1.N) (h0 : ¬t.val % 8 = 0) (h7 : ¬t.val % 8 = 7) (xs0 : Vec F S256x256 .f32) (xs1 : Vec F S256x256 .f32) : Vec F S256x256 .f32 :=
  VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (hB0 t h0) (hB1 t h7) (iblk1 V c 0 t) (iblk1 V c 1 t) (iblk1 V c 2 t) xs0 xs1).2.1)
/-- What a row panel's last point leaves in the output's staging buffer and in the accumulators. -/
def oC3 (c : Dev nD) (t : Fin cfg1.N) (h7 : t.val % 8 = 7) (xs0 : Vec F S256x256 .f32) (xs1 : Vec F S256x256 .f32) : Vec F S256x512 .f32 :=
  VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (hC0 t h7) (hC1 t h7) (iblk1 V c 0 t) (iblk1 V c 1 t) (iblk1 V c 2 t) xs0 xs1).1)
def sC0 (c : Dev nD) (t : Fin cfg1.N) (h7 : t.val % 8 = 7) (xs0 : Vec F S256x256 .f32) (xs1 : Vec F S256x256 .f32) : Vec F S256x256 .f32 :=
  VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (hC0 t h7) (hC1 t h7) (iblk1 V c 0 t) (iblk1 V c 1 t) (iblk1 V c 2 t) xs0 xs1).2.1)
def sC1 (c : Dev nD) (t : Fin cfg1.N) (h7 : t.val % 8 = 7) (xs0 : Vec F S256x256 .f32) (xs1 : Vec F S256x256 .f32) : Vec F S256x256 .f32 :=
  VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (hC0 t h7) (hC1 t h7) (iblk1 V c 0 t) (iblk1 V c 1 t) (iblk1 V c 2 t) xs0 xs1).2.2.1)

/-- Contents for the output's staging buffer at the points that do not write it (never read). -/
def noOut : Vec F S256x512 .f32 := VO1_3.read (Elt F) VO1_3.junk

/-! ## The accumulation -/

/-- What the output's staging buffer (named only at the points ≡ 7 mod 8) and the two accumulators hold after the body
    at position `n`: the case the residue of `n` selects, over what position `n − 1` left. -/
def outsAt1 (c : Dev nD) : (n : ℕ) → n < cfg1.N → Vec F S256x512 .f32 × Vec F S256x256 .f32 × Vec F S256x256 .f32
  | 0, hn => (noOut, sA0 V c ⟨0, hn⟩ (Nat.zero_mod _), sA1 V c ⟨0, hn⟩ (Nat.zero_mod _))
  | n + 1, hn =>
    if h0 : (n + 1) % 8 = 0 then (noOut, sA0 V c ⟨n + 1, hn⟩ h0, sA1 V c ⟨n + 1, hn⟩ h0)
    else if h7 : (n + 1) % 8 = 7 then
      (oC3 V c ⟨n + 1, hn⟩ h7 (outsAt1 c n (Nat.lt_of_succ_lt hn)).2.1 (outsAt1 c n (Nat.lt_of_succ_lt hn)).2.2,
        sC0 V c ⟨n + 1, hn⟩ h7 (outsAt1 c n (Nat.lt_of_succ_lt hn)).2.1 (outsAt1 c n (Nat.lt_of_succ_lt hn)).2.2,
        sC1 V c ⟨n + 1, hn⟩ h7 (outsAt1 c n (Nat.lt_of_succ_lt hn)).2.1 (outsAt1 c n (Nat.lt_of_succ_lt hn)).2.2)
    else
      (noOut, sB0 V c ⟨n + 1, hn⟩ h0 h7 (outsAt1 c n (Nat.lt_of_succ_lt hn)).2.1 (outsAt1 c n (Nat.lt_of_succ_lt hn)).2.2,
        sB1 V c ⟨n + 1, hn⟩ h0 h7 (outsAt1 c n (Nat.lt_of_succ_lt hn)).2.1 (outsAt1 c n (Nat.lt_of_succ_lt hn)).2.2)

/-- What the point before `t` left (for `t` not the first). -/
abbrev prev1 (c : Dev nD) (t : Fin cfg1.N) := outsAt1 V c (t.val - 1) (Nat.lt_of_le_of_lt (Nat.sub_le _ _) t.isLt)

theorem outsAt1_A (c : Dev nD) (t : Fin cfg1.N) (h0 : t.val % 8 = 0) :
    outsAt1 V c t.val t.isLt = (noOut, sA0 V c t h0, sA1 V c t h0) := by
  obtain ⟨n, hn⟩ := t
  cases n with
  | zero => exact rfl
  | succ n => exact (dif_pos h0).trans rfl

theorem outsAt1_B (c : Dev nD) (t : Fin cfg1.N) (h0 : ¬t.val % 8 = 0) (h7 : ¬t.val % 8 = 7) :
    outsAt1 V c t.val t.isLt = (noOut, sB0 V c t h0 h7 (prev1 V c t).2.1 (prev1 V c t).2.2, sB1 V c t h0 h7 (prev1 V c t).2.1 (prev1 V c t).2.2) := by
  obtain ⟨n, hn⟩ := t
  cases n with
  | zero => exact absurd (Nat.zero_mod _) h0
  | succ n => exact (dif_neg h0).trans ((dif_neg h7).trans rfl)

theorem outsAt1_C (c : Dev nD) (t : Fin cfg1.N) (h7 : t.val % 8 = 7) :
    outsAt1 V c t.val t.isLt = (oC3 V c t h7 (prev1 V c t).2.1 (prev1 V c t).2.2, sC0 V c t h7 (prev1 V c t).2.1 (prev1 V c t).2.2, sC1 V c t h7 (prev1 V c t).2.1 (prev1 V c t).2.2) := by
  obtain ⟨n, hn⟩ := t
  cases n with
  | zero => exact absurd (show (0 : ℕ) % 8 = 7 from h7) (by decide)
  | succ n => exact (dif_neg (by dsimp only at h7 ⊢; omega)).trans ((dif_pos h7).trans rfl)

/-! ## The invariant between points -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2)) ∗ RestS c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2)) ∗ RestS c) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2)) ∗ RestS c) := by
  cases n with
  | zero => exact absurd rfl hz
  | succ n => rfl

/-! ## The proof data -/

/-- The stage's proof data on core `c`: the arrays as the stage finds them; after the body each input's buffer at its
    block and the output's at `outsAt1`'s first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What the body leaves of the output's staging buffer: as found at the points that do not write the block back (and
    there the buffer is idle), the two accumulators side by side at the points that do. -/
def leaves3 (c : Dev nD) (t : Fin cfg1.N) : sProp 𝕄 :=
  match cfg1.idle 3 (cfg1.grid.coords t) with
  | true =>
    match (cfg1.win 3).flush t with
    | false => iprop(∃ d, owns (c : Thread nD τ) (ms1_3 t) fullShare ((dat1 V c).before 3 t d))
    | true => owns (c : Thread nD τ) (ms1_3 t) fullShare ((dat1 V c).after 3 t)
  | false => owns (c : Thread nD τ) (ms1_3 t) fullShare ((dat1 V c).after 3 t)

theorem leaves3_idle (c : Dev nD) (t : Fin cfg1.N) (h7 : ¬t.val % 8 = 7) :
    leaves3 V c t = iprop(∃ d, owns (c : Thread nD τ) (ms1_3 t) fullShare ((dat1 V c).before 3 t d)) := by
  unfold leaves3; rw [idle3_true t h7, flush3_false t h7]
theorem leaves3_live (c : Dev nD) (t : Fin cfg1.N) (h7 : t.val % 8 = 7) :
    leaves3 V c t = owns (c : Thread nD τ) (ms1_3 t) fullShare ((dat1 V c).after 3 t) := by
  unfold leaves3; rw [idle3_false t h7]

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ leaves3 V c t)

set_option maxHeartbeats 6400000 in
/-- The body at any point: the inputs' buffers hold their blocks; the point's residue mod 8 says which case runs; the
    invariant hands over the accumulators at what the point before left (at anything at the very first point) and
    takes them back at this point's contents; the output's buffer is handed back as found off the last column
    block and covered at it; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · have h7 : ¬t.val % 8 = 7 := by omega
    rw [leaves3_idle V c t h7]
    rw [outsAt1_A V c t h0]
    unfold sA0 sA1; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_out c) $$ HΦ
      icases HΦ' with ⟨HS0, HS1, Hr⟩
      iapply ((kernelRun1_A c (grid1.coords t) _ _ _ _ _ _ _ _ _ _ _ _ (hA0 t h0) (hA1 t h0) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _)
        iexact Hr
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HS1⟩, Hr⟩, Ho, ⟨%d0, H0⟩, ⟨%d1, H1⟩, ⟨%d2, H2⟩, ⟨%d3, H3⟩⟩
      iapply ((kernelRun1_A c (grid1.coords t) _ _ _ _ _ _ _ _ _ _ _ _ (hA0 t h0) (hA1 t h0) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h7 : t.val % 8 = 7
    · rw [leaves3_live V c t h7, after1_3]
      rw [outsAt1_C V c t h7]
      unfold oC3 sC0 sC1; (try dsimp only)
      rw [PhiS1_castSucc V c t, PhiS1_pos V c _ _ hz]
      iintro ⟨⟨⟨HS0, HS1⟩, Hr⟩, Ho, ⟨%d0, H0⟩, ⟨%d1, H1⟩, ⟨%d2, H2⟩, ⟨%d3, H3⟩⟩
      iapply ((kernelRun1_C c (grid1.coords t) _ _ _ _ _ _ _ _ _ _ _ _ (hC0 t h7) (hC1 t h7) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _)
    · rw [leaves3_idle V c t h7]
      rw [outsAt1_B V c t h0 h7]
      unfold sB0 sB1; (try dsimp only)
      rw [PhiS1_castSucc V c t, PhiS1_pos V c _ _ hz]
      iintro ⟨⟨⟨HS0, HS1⟩, Hr⟩, Ho, ⟨%d0, H0⟩, ⟨%d1, H1⟩, ⟨%d2, H2⟩, ⟨%d3, H3⟩⟩
      iapply ((kernelRun1_B c (grid1.coords t) _ _ _ _ _ _ _ _ _ _ _ _ (hB0 t h0) (hB1 t h7) (iblk1 V c 0 t) (iblk1 V c 1 t) (iblk1 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _)
        iexact Hr
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the stage is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne]
  refine .trans ?_ (PhiA1_in c)
  iintro ⟨⟨HS0, HS1⟩, Hr⟩
  isplitl [HS0]; · iexists _; iexact HS0
  isplitl [HS1]; · iexists _; iexact HS1
  iexact Hr

end Cert.ReferenceIdeal.Reg1

end
-- ==== Proof.RefRun.lean ====
/-
  The two-stage program's run from launch to return.

  @main is the feature-transform stage, the aggregation stage, and two slices of the aggregation's result.  The
  unscoped buffers' contents at the boundaries between them are a fold from the launch memory: after a stage, its
  arrays hold what its write-backs leave (the stage's proof data, entered at the contents before it) and every other
  buffer is as before; after the slices, `StableHlo.after` of the two operations.  Each stage is a region record
  over the thread state "every unscoped buffer at the boundary's contents, the generator register at some state,
  nothing owed"; the run reads EVERY unscoped buffer of the final memory at the last boundary's contents, from which
  both the unchanged arguments and the two results follow.
-/
import proofs.«104746_g2000202054435738_pallasbulk_107_12_alg».proof.Proof.RefRegion0
import proofs.«104746_g2000202054435738_pallasbulk_107_12_alg».proof.Proof.RefRegion1
import Idealize.ShloMosaic.Lib.Pipeline.RegionsLoop
import Idealize.ShloMosaic.Lib.Pipeline.FrameSuffix

set_option maxRecDepth 16384

noncomputable section

namespace Cert.ReferenceIdeal.Run

open Cert.ReferenceIdeal Cert.ReferenceIdeal.Gen Cert.ReferenceIdeal.Reg0 Cert.ReferenceIdeal.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first stage's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first stage: its arrays at what its write-backs leave, every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second stage: its arrays at what its write-backs leave, every other buffer as it entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the two slices: the return. -/
abbrev W3 : Dev nD → Valuation τ sig (Elt F) := fun c => StableHlo.after hostOps2 (W2 m ρ c)

/-! ## The proof data family and the thread state -/

abbrev adm : (p : Fin 2) → (pcfgs (F := F) p).Adm := fun p => (cfgs p).toPCfg_adm
/-- Each stage's proof data at its entry contents — a literal match on the stage. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The stages as segments -/

set_option backward.isDefEq.respectTransparency.types false in
/-- The feature-transform stage over the thread state: entered from `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation stage over the thread state: entered from `W1`, left at `W2`; the generator register and the
    scratch memory go into its invariant at the first point and come back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V1 m ρ) c)
    unfold Pipeline.ΦA
    iintro ⟨Hp, -, Hr⟩
    isplitl [Hr]; · iexact Hr
    iexact Hp
  hout c := by
    rw [Pipeline.ownSems0_none]
    refine (hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, and the final memory
    holds every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps2 (W2 m ρ c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.ReferenceIdeal.Run

end
-- ==== Proof.RefDot0.lean ====
/-
  One block product of the feature transform, read at an entry.

  Both products of the stage multiply a 512×256 block of attenuated features by a whole 256×256 weight matrix, contracting
  the 256 features, into a zero start.  On the extended reals such a product at row `p`, column `q` is the plain sum
  Σ_l a[p,l] · b[l,q]: this module names the operand entries that the product's dimension numbers select (row `p` and the
  contracted feature on the left; the contracted feature and column `q` on the right) and re-indexes the sum by the feature.
-/
import proofs.«104746_g2000202054435738_pallasbulk_107_12_alg».proof.Proof.Gen.ReferenceIdeal
import Idealize.ShloMosaic.PureOps.Ideal.Laws
import Idealize.ShloMosaic.Lib.ValueIdx

noncomputable section

namespace Cert.ReferenceIdeal.Reg0

open Cert.ReferenceIdeal Cert.ReferenceIdeal.Gen
open Idealize.ShloMosaic Idealize.ShloMosaic.ValueIdx

/-- The dimension numbers of both products: contract the left operand's columns with the right operand's rows. -/
abbrev D0 : DotDims S512x256 S256x256 S512x256 := dot_S512x256_S256x256_S512x256_1_0_0_1_n_n

/-- The left operand's row is the result's row. -/
theorem lhs_row (i : S512x256.Idx) (k : D0.contr.Idx) : (D0.lhsIdx i k 0).val = (i 0).val := by
  unfold DotDims.lhsIdx
  rw [dif_neg (show ¬(0 : Fin S512x256.rank) ∈ D0.lhsBatch by decide),
    dif_pos (show (0 : Fin S512x256.rank) ∈ D0.lhsNonContracting by decide)]
  rfl

/-- The left operand's column is the contracted feature. -/
theorem lhs_col (i : S512x256.Idx) (k : D0.contr.Idx) : (D0.lhsIdx i k 1).val = (k ⟨0, by decide⟩).val :=
  D0.lhsIdx_val_of_single rfl i k

/-- The right operand's row is the contracted feature. -/
theorem rhs_row (i : S512x256.Idx) (k : D0.contr.Idx) : (D0.rhsIdx i k 0).val = (k ⟨0, by decide⟩).val :=
  D0.rhsIdx_val_of_single rfl i k

/-- The right operand's column is the result's column. -/
theorem rhs_col (i : S512x256.Idx) (k : D0.contr.Idx) : (D0.rhsIdx i k 1).val = (i 1).val := by
  unfold DotDims.rhsIdx
  rw [dif_neg (show ¬(1 : Fin S256x256.rank) ∈ D0.rhsBatch by decide),
    dif_pos (show (1 : Fin S256x256.rank) ∈ D0.rhsNonContracting by decide)]
  rfl

/-- The block product into the zero start, at row `p` and column `q`: the sum over the 256 features. -/
theorem product_at (a : FVec Ideal S512x256 .f32) (b : FVec Ideal S256x256 .f32) (p : Fin 512) (q : Fin 256) :
    matmul (F := Ideal) D0 none a b (constant (F := Ideal) S512x256 .f32 0x00000000#32) (ix2 p q)
      = ∑ l : Fin 256, a (ix2 p l) * b (ix2 l q) := by
  simp only [matmul]
  rw [Ideal.matmul_constant_zero_apply, ← Equiv.sum_comp (contrEquiv1 D0 256 rfl rfl).symm]
  refine Finset.sum_congr rfl fun l _ => ?_
  have hl := contrEquiv1_symm_val D0 256 rfl rfl l
  have el : D0.lhsIdx (ix2 p q) ((contrEquiv1 D0 256 rfl rfl).symm l) = ix2 p l := funext fun a => Fin.ext (by
    match a with
    | ⟨0, _⟩ => exact lhs_row _ _
    | ⟨1, _⟩ => exact (lhs_col _ _).trans hl)
  have er : D0.rhsIdx (ix2 p q) ((contrEquiv1 D0 256 rfl rfl).symm l) = ix2 l q := funext fun a => Fin.ext (by
    match a with
    | ⟨0, _⟩ => exact (rhs_row _ _).trans hl
    | ⟨1, _⟩ => exact rhs_col _ _)
  rw [el, er]

end Cert.ReferenceIdeal.Reg0

end
-- ==== Proof.RefPayload0.lean ====
/-
  What the feature transform's one store holds, entry by entry, on the extended reals.

  The stored 512×512 block is two block products side by side.  At row `p`: in a column `q < 256` it is
  Σ_l (x0[p,l] · exp(−x1[p,l])) · x2[l,q]; in a column `q ≥ 256` it is Σ_l ((x1[p,l] · exp(−x1[p,l])) · exp(−x1[p,l])) · x3[l,q−256],
  where x0, x1 are the blocks of the mean and variance features and x2, x3 the two weight matrices.  When the blocks are
  rows 512·n … 512·n+511 of whole feature arrays and the weight blocks are the whole weight matrices, that is the
  side-by-side specification `innerCat` at row 512·n + p (`block_entry`).
-/
import proofs.«104746_g2000202054435738_pallasbulk_107_12_alg».proof.Proof.Gen.ReferenceIdeal.Skeleton
import proofs.«104746_g2000202054435738_pallasbulk_107_12_alg».proof.Proof.RefDot0
import proofs.«104746_g2000202054435738_pallasbulk_107_12_alg».proof.Proof.Spec
import Idealize.ShloMosaic.Lib.Pipeline.Value

noncomputable section

namespace Cert.ReferenceIdeal.Reg0

open Cert.ReferenceIdeal Cert.ReferenceIdeal.Gen
open Idealize.ShloMosaic Idealize.ShloMosaic.ValueIdx
open Cert.Proof

/-- A column of the left half reads the first product at the same row and column. -/
theorem pay_left (x0 x1 : Vec Ideal S512x256 .f32) (x2 x3 : Vec Ideal S256x256 .f32) (p : Fin 512) (q : Fin 512)
    (h : q.val < 256) :
    k0_pay1 (F := Ideal) x0 x1 x2 x3 (ix2 p q)
      = ∑ l : Fin 256, (x0 (ix2 p l) * Ideal.exp (Spec.negOne * x1 (ix2 p l))) * x2 (ix2 l ⟨q.val, h⟩) := by
  unfold k0_pay1
  refine (concatenate_pair_apply_left (t := S512x512) (s₁ := S512x256) (s₂ := S512x256) 1 _ _
    concatenates_S512x256_S512x256_S512x512_d1 (ix2 p q) rfl (ix2 p ⟨q.val, h⟩) ?_).trans ?_
  · intro b
    match b with
    | ⟨0, _⟩ => rfl
    | ⟨1, _⟩ => rfl
  · refine (product_at _ _ p ⟨q.val, h⟩).trans ?_
    exact Finset.sum_congr rfl fun l _ => rfl

/-- A column of the right half reads the second product at the same row, 256 columns to the left. -/
theorem pay_right (x0 x1 : Vec Ideal S512x256 .f32) (x2 x3 : Vec Ideal S256x256 .f32) (p : Fin 512) (q : Fin 512)
    (h : ¬ q.val < 256) :
    k0_pay1 (F := Ideal) x0 x1 x2 x3 (ix2 p q)
      = ∑ l : Fin 256, ((x1 (ix2 p l) * Ideal.exp (Spec.negOne * x1 (ix2 p l))) * Ideal.exp (Spec.negOne * x1 (ix2 p l)))
          * x3 (ix2 l ⟨q.val - 256, by have := q.isLt; omega⟩) := by
  unfold k0_pay1
  refine (concatenate_pair_apply_right (t := S512x512) (s₁ := S512x256) (s₂ := S512x256) 1 _ _
    concatenates_S512x256_S512x256_S512x512_d1 (ix2 p q) rfl rfl (ix2 p ⟨q.val - 256, by have := q.isLt; omega⟩) ?_ ?_).trans ?_
  · intro b hb
    match b with
    | ⟨0, _⟩ => rfl
    | ⟨1, _⟩ => exact absurd rfl hb
  · show (q.val - 256) + 256 = q.val
    omega
  · refine (product_at _ _ p ⟨q.val - 256, by have := q.isLt; omega⟩).trans ?_
    exact Finset.sum_congr rfl fun l _ => rfl

end Cert.ReferenceIdeal.Reg0

end
-- ==== Proof.RefBlock0.lean ====
/-
  The stored block is a block of the specification.

  If the two feature blocks are rows 512·n … 512·n + 511 of whole feature arrays `mu`, `sg`, and the two weight blocks are
  the whole weight matrices `wm`, `ws`, then the entry of the stored block at row `p`, column `q` is the side-by-side
  specification `innerCat mu sg wm ws` at row 512·n + p, column `q`: in the left half the transformed mean feature
  `innerM`, in the right half the transformed variance feature `innerS` 256 columns to the left.
-/
import proofs.«104746_g2000202054435738_pallasbulk_107_12_alg».proof.Proof.RefPayload0

noncomputable section

namespace Cert.ReferenceIdeal.Reg0

open Cert.ReferenceIdeal Cert.ReferenceIdeal.Gen
open Idealize.ShloMosaic Idealize.ShloMosaic.ValueIdx
open Cert.Proof

/-- The side-by-side array in a column of its left half. -/
theorem innerCat_left (mu sg : Spec.Arr 4096 256) (wm ws : Spec.Arr 256 256) (i : (⟨2, ![4096, 512]⟩ : Shape).Idx)
    (r : Fin 4096) (q : Fin 256) (h0 : i 0 = r) (h1 : (i 1).val = q.val) :
    Spec.innerCat mu sg wm ws i = Spec.innerM mu sg wm r q := by
  unfold Spec.innerCat
  have h : (i 1).val < 256 := by rw [h1]; exact q.isLt
  rw [dif_pos h, h0]
  exact congrArg (Spec.innerM mu sg wm r) (Fin.ext h1)

/-- The side-by-side array in a column of its right half. -/
theorem innerCat_right (mu sg : Spec.Arr 4096 256) (wm ws : Spec.Arr 256 256) (i : (⟨2, ![4096, 512]⟩ : Shape).Idx)
    (r : Fin 4096) (q : Fin 256) (h0 : i 0 = r) (h1 : (i 1).val = q.val + 256) :
    Spec.innerCat mu sg wm ws i = Spec.innerS sg ws r q := by
  unfold Spec.innerCat
  have h : ¬ (i 1).val < 256 := by rw [h1]; omega
  rw [dif_neg h, h0]
  exact congrArg (Spec.innerS sg ws r) (Fin.ext (by show (i 1).val - 256 = q.val; omega))

/-- The stored block's entry at `j` is the specification's entry at row 512·n + (j's row), the same column. -/
theorem block_entry (mu sg : Spec.Arr 4096 256) (wm ws : Spec.Arr 256 256)
    (x0 x1 : Vec Ideal S512x256 .f32) (x2 x3 : Vec Ideal S256x256 .f32) (n : Nat) (hn : n < 8)
    (h0 : ∀ (p : Fin 512) (l : Fin 256), x0 (ix2 p l) = mu (ix2 ⟨512 * n + p.val, by have := p.isLt; omega⟩ l))
    (h1 : ∀ (p : Fin 512) (l : Fin 256), x1 (ix2 p l) = sg (ix2 ⟨512 * n + p.val, by have := p.isLt; omega⟩ l))
    (h2 : ∀ (l q : Fin 256), x2 (ix2 l q) = wm (ix2 l q))
    (h3 : ∀ (l q : Fin 256), x3 (ix2 l q) = ws (ix2 l q))
    (j : S512x512.Idx) (i : (⟨2, ![4096, 512]⟩ : Shape).Idx)
    (hi0 : (i 0).val = 512 * n + (j 0).val) (hi1 : (i 1).val = (j 1).val) :
    k0_pay1 (F := Ideal) x0 x1 x2 x3 j = Spec.innerCat mu sg wm ws i := by
  obtain ⟨p, q, rfl⟩ : ∃ (p : Fin 512) (q : Fin 512), j = ix2 p q := ⟨j 0, j 1, eq_ix2 j⟩
  have hp : 512 * n + p.val < 4096 := by have := p.isLt; omega
  have hr : i 0 = ⟨512 * n + p.val, hp⟩ := Fin.ext hi0
  have hq : (i 1).val = q.val := hi1
  by_cases h : q.val < 256
  · rw [pay_left x0 x1 x2 x3 p q h, innerCat_left mu sg wm ws i ⟨512 * n + p.val, hp⟩ ⟨q.val, h⟩ hr hq]
    unfold Spec.innerM Spec.featM Spec.att
    exact Finset.sum_congr rfl fun l _ => by rw [h0, h1, h2]
  · have hq' : q.val - 256 < 256 := by have := q.isLt; omega
    rw [pay_right x0 x1 x2 x3 p q h,
      innerCat_right mu sg wm ws i ⟨512 * n + p.val, hp⟩ ⟨q.val - 256, hq'⟩ hr (by show (i 1).val = q.val - 256 + 256; omega)]
    unfold Spec.innerS Spec.featS Spec.att
    exact Finset.sum_congr rfl fun l _ => by rw [h1, h3]

end Cert.ReferenceIdeal.Reg0

end
-- ==== Proof.RefValue0.lean ====
/-
  What the first stage leaves in its result array, on the extended reals: the side-by-side specification.

  Panel `t` of the stage writes back one 512×512 block, rows 512·t … 512·t + 511 of the 4096×512 result.  The blocks it reads
  are rows 512·t … 512·t + 511 of the mean and variance feature arrays and the whole weight matrices, so by `block_entry`
  the block written back is exactly that block of `innerCat` of the four arrays as the stage finds them
  (`flushed_eq`).  Row `r` of the result lies in the block of panel `r / 512`, so the eight blocks cover the array
  (`cover`), and the array ends as `innerCat` (`inner_array`).
-/
import proofs.«104746_g2000202054435738_pallasbulk_107_12_alg».proof.Proof.RefRegion0
import proofs.«104746_g2000202054435738_pallasbulk_107_12_alg».proof.Proof.RefBlock0
import proofs.«104746_g2000202054435738_pallasbulk_107_12_alg».proof.Proof.Spec
import Idealize.ShloMosaic.Lib.Pipeline.Value

set_option maxRecDepth 16384

noncomputable section

namespace Cert.ReferenceIdeal.Reg0

open Cert.ReferenceIdeal Cert.ReferenceIdeal.Gen
open Idealize.ShloMosaic Idealize.ShloMosaic.TcCoe Idealize.ShloMosaic.ValueIdx Idealize.SL.Sem
open Idealize.ShloMosaic.Pipeline (Dat)
open Cert.Proof

variable (V : (c : Dev nD) → (b : Ref sig .tc) → Buf (Elt Ideal) ((c : Thread nD τ).loc b))

theorem hz : (![0, 0] : Fin 2 → Nat) = fun _ => 0 := funext fun a => by fin_cases a <;> rfl

/-- Where each array's block sits at panel `t`: the feature arrays' and the result's at row block `t`, the weight
    matrices' at the origin; every block at column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Panel `t`'s block of the mean features is rows 512·t … of the array. -/
theorem read_mu (c : Dev nD) (t : Fin cfg0.N) (p : Fin 512) (l : Fin 256) (hp : 512 * t.val + p.val < 4096) :
    (iblk0 V c 0 t : Vec Ideal S512x256 .f32) (ix2 p l)
      = (V c main_arg0 : Spec.Arr 4096 256) (ix2 ⟨512 * t.val + p.val, hp⟩ l) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 512 + 1 * p.val = 512 * t.val + p.val; rw [e0]; omega
  | ⟨1, _⟩ => show win0_0.index t (1 : Fin 2) * 256 + 1 * l.val = l.val; rw [e1]; omega

/-- Panel `t`'s block of the variance features is rows 512·t … of the array. -/
theorem read_sg (c : Dev nD) (t : Fin cfg0.N) (p : Fin 512) (l : Fin 256) (hp : 512 * t.val + p.val < 4096) :
    (iblk0 V c 1 t : Vec Ideal S512x256 .f32) (ix2 p l)
      = (V c main_arg1 : Spec.Arr 4096 256) (ix2 ⟨512 * t.val + p.val, hp⟩ l) := by
  obtain ⟨-, -, e0, e1, -⟩ := idx_facts t
  unfold iblk0
  rw [View.read_apply]
  show V c main_arg1 _ = V c main_arg1 _
  refine congrArg (V c main_arg1) ?_
  funext a
  apply Fin.ext
  match a with
  | ⟨0, _⟩ => show win0_1.index t (0 : Fin 2) * 512 + 1 * p.val = 512 * t.val + p.val; rw [e0]; omega
  | ⟨1, _⟩ => show win0_1.index t (1 : Fin 2) * 256 + 1 * l.val = l.val; rw [e1]; omega

/-- At every panel the first weight matrix's block is the whole matrix. -/
theorem read_wm (c : Dev nD) (t : Fin cfg0.N) (l q : Fin 256) :
    (iblk0 V c 2 t : Vec Ideal S256x256 .f32) (ix2 l q) = (V c main_arg2 : Spec.Arr 256 256) (ix2 l q) := by
  obtain ⟨-, -, -, -, e0, e1, -⟩ := idx_facts t
  unfold iblk0
  rw [View.read_apply]
  show V c main_arg2 _ = V c main_arg2 _
  refine congrArg (V c main_arg2) ?_
  funext a
  apply Fin.ext
  match a with
  | ⟨0, _⟩ => show win0_2.index t (0 : Fin 2) * 256 + 1 * l.val = l.val; rw [e0]; omega
  | ⟨1, _⟩ => show win0_2.index t (1 : Fin 2) * 256 + 1 * q.val = q.val; rw [e1]; omega

/-- At every panel the second weight matrix's block is the whole matrix. -/
theorem read_ws (c : Dev nD) (t : Fin cfg0.N) (l q : Fin 256) :
    (iblk0 V c 3 t : Vec Ideal S256x256 .f32) (ix2 l q) = (V c main_arg3 : Spec.Arr 256 256) (ix2 l q) := by
  obtain ⟨-, -, -, -, -, -, e0, e1, -⟩ := idx_facts t
  unfold iblk0
  rw [View.read_apply]
  show V c main_arg3 _ = V c main_arg3 _
  refine congrArg (V c main_arg3) ?_
  funext a
  apply Fin.ext
  match a with
  | ⟨0, _⟩ => show win0_3.index t (0 : Fin 2) * 256 + 1 * l.val = l.val; rw [e0]; omega
  | ⟨1, _⟩ => show win0_3.index t (1 : Fin 2) * 256 + 1 * q.val = q.val; rw [e1]; omega

/-- WHAT PANEL `t` WRITES BACK is block `t` of the side-by-side specification of the four arrays as the stage finds them. -/
theorem flushed_eq (c : Dev nD) (t : Fin cfg0.N) :
    (dat0 (F := Ideal) V c).flushed 4 t = ((cfg0.win 4).blk t).view.read (Elt Ideal)
      (Spec.innerCat (V c main_arg0) (V c main_arg1) (V c main_arg2) (V c main_arg3)) := by
  have hN : t.val < 8 := lt_of_lt_of_eq t.isLt (show cfg0.N = 8 from N_0)
  obtain ⟨-, -, -, -, -, -, -, -, e0, e1⟩ := idx_facts t
  show (cfg0.win 4).cut (grid0.coords t) ((dat0 (F := Ideal) V c).after 4 t) = _
  rw [after0_4]
  unfold out0_4
  rw [View.canon_unit_zero hz]
  simp only [View.ld_unit_zero (S := S512x256) hz, View.ld_unit_zero (S := S256x256) hz]
  funext j
  show k0_pay1 (F := Ideal) (iblk0 V c 0 t) (iblk0 V c 1 t) (iblk0 V c 2 t) (iblk0 V c 3 t) j
    = Spec.innerCat (V c main_arg0) (V c main_arg1) (V c main_arg2) (V c main_arg3) (((cfg0.win 4).blk t).view.emb j)
  refine block_entry (V c main_arg0) (V c main_arg1) (V c main_arg2) (V c main_arg3)
    (iblk0 V c 0 t) (iblk0 V c 1 t) (iblk0 V c 2 t) (iblk0 V c 3 t) t.val hN
    (fun p l => read_mu V c t p l _) (fun p l => read_sg V c t p l _) (fun l q => read_wm V c t l q) (fun l q => read_ws V c t l q)
    j (((cfg0.win 4).blk t).view.emb j) ?_ ?_
  · show win0_4.index t (0 : Fin 2) * 512 + 1 * (j 0).val = 512 * t.val + (j 0).val
    rw [e0]; omega
  · show win0_4.index t (1 : Fin 2) * 512 + 1 * (j 1).val = (j 1).val
    rw [e1]; omega

/-- An entry of the result is in panel `t`'s block iff each coordinate is in the block's range on its axis. -/
theorem mem_blk (t : Fin cfg0.N) (i : S4096x512.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v0).slice (win0_4.rect t)).set ↔ _
  rw [View.set_slice_whole, Rect.mem_set_unit]
  exact Iff.rfl

/-- Row `r` of the result is written back by panel `r / 512`. -/
theorem cover (i : S4096x512.Idx) :
    ∃ t : Fin cfg0.N, (cfg0.win 4).flush t = true ∧ i ∈ ((cfg0.win 4).blk t).view.set := by
  have hi0 : (i 0).val < 4096 := (i 0).isLt
  have hi1 : (i 1).val < 512 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 512 ≤ (i 1).val ∧ (i 1).val < win0_4.index t (1 : Fin 2) * 512 + 512
    rw [e1]; omega

/-- THE RESULT ARRAY after the first stage: the transformed mean and variance features side by side, as one function of
    the four arrays the stage finds. -/
theorem inner_array (c : Dev nD) :
    (dat0 (F := Ideal) V c).arrAt 4 cfg0.N
      = Spec.innerCat (V c main_arg0) (V c main_arg1) (V c main_arg2) (V c main_arg3) :=
  (dat0 (F := Ideal) V c).arrAt_eq_of_cover 4
    (Spec.innerCat (V c main_arg0) (V c main_arg1) (V c main_arg2) (V c main_arg3))
    (fun t _ => flushed_eq V c t) cover

end Cert.ReferenceIdeal.Reg0

end
-- ==== Proof.RefFinal.lean ====
/-
  The two-stage program's results as functions of its arguments.

  The run leaves every unscoped buffer at the last boundary's contents.  Read back through the boundaries: an
  argument is never written (a stage reads it through an input window, or does not stage it; the slices write only the
  results), the first stage's result is the two transformed feature arrays side by side, the second stage's the two
  aggregations side by side, and the returned arrays are its left and right halves — the aggregation of the mean
  features by the first adjacency matrix and of the variance features by the second.
-/
import proofs.«104746_g2000202054435738_pallasbulk_107_12_alg».proof.Proof.RefRun
import proofs.«104746_g2000202054435738_pallasbulk_107_12_alg».proof.Proof.RefValue0
import proofs.«104746_g2000202054435738_pallasbulk_107_12_alg».proof.Proof.Spec
import Idealize.ShloMosaic.Lib.StableHlo.Run
import Idealize.ShloMosaic.Lib.Pipeline.Value

set_option maxRecDepth 16384

noncomputable section

namespace Cert.Proof.RefFinal

open Cert.ReferenceIdeal Cert.ReferenceIdeal.Gen Cert.ReferenceIdeal.Run
open Cert.ReferenceIdeal.Reg0 (dat0 A_eq0 inner_array)
open Cert.ReferenceIdeal.Reg1 (dat1 A_eq1)
open Idealize.ShloMosaic Idealize.ShloMosaic.TcCoe Idealize.ShloMosaic.ValueIdx Idealize.SL.Sem
open Idealize.ShloMosaic.Pipeline (Dat)
open Cert.Proof

/-! ## The halves of the side-by-side aggregation -/

/-- Columns 0–255 of the side-by-side aggregation of the side-by-side features: the mean's aggregation. -/
theorem slice_left (a1 a2 : Spec.Arr 4096 4096) (mu sg : Spec.Arr 4096 256) (wm ws : Spec.Arr 256 256) (h : S4096x512.Slices ![0, 0] S4096x256) :
    extractStridedSlice S4096x256 ![0, 0] (Spec.outCat a1 a2 (Spec.innerCat mu sg wm ws)) h = Spec.outM mu sg wm a1 := by
  funext j
  obtain ⟨p, q, rfl⟩ : ∃ (p : Fin 4096) (q : Fin 256), j = ix2 p q := ⟨j 0, j 1, eq_ix2 j⟩
  rw [extractStridedSlice_apply ![0, 0] _ h (ix2 p q) (ix2 p (⟨q.val, by omega⟩ : Fin 512))
    (fun a => by match a with | ⟨0, _⟩ => exact (Nat.zero_add _).symm | ⟨1, _⟩ => exact (Nat.zero_add _).symm)]
  unfold Spec.outCat Spec.outM Spec.aggr
  rw [if_pos (show ((ix2 p (⟨q.val, by omega⟩ : Fin 512) : (⟨2, ![4096, 512]⟩ : Shape).Idx) 1).val < 256 from q.isLt)]
  refine Finset.sum_congr rfl fun k _ => ?_
  refine congrArg (a1 (ix2 p k) * ·) ?_
  unfold Spec.innerCat
  rw [dif_pos (show ((ix2 k (⟨q.val, by omega⟩ : Fin 512) : (⟨2, ![4096, 512]⟩ : Shape).Idx) 1).val < 256 from q.isLt)]

/-- Columns 256–511: the variance's aggregation. -/
theorem slice_right (a1 a2 : Spec.Arr 4096 4096) (mu sg : Spec.Arr 4096 256) (wm ws : Spec.Arr 256 256) (h : S4096x512.Slices ![0, 256] S4096x256) :
    extractStridedSlice S4096x256 ![0, 256] (Spec.outCat a1 a2 (Spec.innerCat mu sg wm ws)) h = Spec.outS sg ws a2 := by
  funext j
  obtain ⟨p, q, rfl⟩ : ∃ (p : Fin 4096) (q : Fin 256), j = ix2 p q := ⟨j 0, j 1, eq_ix2 j⟩
  rw [extractStridedSlice_apply ![0, 256] _ h (ix2 p q) (ix2 p (⟨256 + q.val, by omega⟩ : Fin 512))
    (fun a => by match a with | ⟨0, _⟩ => exact (Nat.zero_add _).symm | ⟨1, _⟩ => rfl)]
  unfold Spec.outCat Spec.outS Spec.aggr
  rw [if_neg (show ¬((ix2 p (⟨256 + q.val, by omega⟩ : Fin 512) : (⟨2, ![4096, 512]⟩ : Shape).Idx) 1).val < 256 from by
    show ¬(256 + q.val < 256); omega)]
  refine Finset.sum_congr rfl fun k _ => ?_
  refine congrArg (a2 (ix2 p k) * ·) ?_
  unfold Spec.innerCat
  rw [dif_neg (show ¬((ix2 k (⟨256 + q.val, by omega⟩ : Fin 512) : (⟨2, ![4096, 512]⟩ : Shape).Idx) 1).val < 256 from by
    show ¬(256 + q.val < 256); omega)]
  refine congrArg (Spec.innerS sg ws k) (Fin.ext ?_)
  show 256 + q.val - 256 = q.val
  omega

/-! ## The boundaries' contents at the buffers the claim reads -/

variable (m : (ℓ : Loc nD τ sig) → Buf (Elt Ideal) ℓ) (ρ : Dev nD → PrngReg)
-- what the aggregation stage leaves in its result array, as one function of the arrays it is entered with
variable (hout : ∀ (V : (c : Dev nD) → (b : Ref sig .tc) → Buf (Elt Ideal) ((c : Thread nD τ).loc b)) (c : Dev nD),
  (dat1 (F := Ideal) V c).arrAt 3 cfg1.N = Spec.outCat (V c main_arg4) (V c main_arg5) (V c main_v0))

theorem W1_arg0 (c : Dev nD) : W1 m ρ c (Proc.devRef .tc main_arg0) = (m ((c : Thread nD τ).loc main_arg0)) :=
  (W1_arr m ρ c 0).trans (((dat0 (V0 m ρ) c).arrAt_in 0 rfl _).trans ((A_eq0 (V0 m ρ) c 0).trans rfl))
theorem W1_arg1 (c : Dev nD) : W1 m ρ c (Proc.devRef .tc main_arg1) = (m ((c : Thread nD τ).loc main_arg1)) :=
  (W1_arr m ρ c 1).trans (((dat0 (V0 m ρ) c).arrAt_in 1 rfl _).trans ((A_eq0 (V0 m ρ) c 1).trans rfl))
theorem W1_arg2 (c : Dev nD) : W1 m ρ c (Proc.devRef .tc main_arg2) = (m ((c : Thread nD τ).loc main_arg2)) :=
  (W1_arr m ρ c 2).trans (((dat0 (V0 m ρ) c).arrAt_in 2 rfl _).trans ((A_eq0 (V0 m ρ) c 2).trans rfl))
theorem W1_arg3 (c : Dev nD) : W1 m ρ c (Proc.devRef .tc main_arg3) = (m ((c : Thread nD τ).loc main_arg3)) :=
  (W1_arr m ρ c 3).trans (((dat0 (V0 m ρ) c).arrAt_in 3 rfl _).trans ((A_eq0 (V0 m ρ) c 3).trans rfl))
theorem W1_arg4 (c : Dev nD) : W1 m ρ c (Proc.devRef .tc main_arg4) = (m ((c : Thread nD τ).loc main_arg4)) :=
  (W1_of_ne m ρ c main_arg4 (by decide)).trans rfl
theorem W1_arg5 (c : Dev nD) : W1 m ρ c (Proc.devRef .tc main_arg5) = (m ((c : Thread nD τ).loc main_arg5)) :=
  (W1_of_ne m ρ c main_arg5 (by decide)).trans rfl
/-- The first stage's result: the two transformed feature arrays side by side. -/
theorem W1_v0 (c : Dev nD) : W1 m ρ c (Proc.devRef .tc main_v0)
    = Spec.innerCat (m ((c : Thread nD τ).loc main_arg0)) (m ((c : Thread nD τ).loc main_arg1)) (m ((c : Thread nD τ).loc main_arg2)) (m ((c : Thread nD τ).loc main_arg3)) :=
  (W1_arr m ρ c 4).trans (inner_array (V0 m ρ) c)

theorem W2_arg0 (c : Dev nD) : W2 m ρ c (Proc.devRef .tc main_arg0) = (m ((c : Thread nD τ).loc main_arg0)) :=
  (W2_of_ne m ρ c main_arg0 (by decide)).trans (W1_arg0 m ρ c)
theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_arr m ρ c 0).trans (((dat1 (V1 m ρ) c).arrAt_in 0 rfl _).trans ((A_eq1 (V1 m ρ) c 0).trans (W1_arg4 m ρ c)))
theorem W2_arg5 (c : Dev nD) : W2 m ρ c (Proc.devRef .tc main_arg5) = (m ((c : Thread nD τ).loc main_arg5)) :=
  (W2_arr m ρ c 1).trans (((dat1 (V1 m ρ) c).arrAt_in 1 rfl _).trans ((A_eq1 (V1 m ρ) c 1).trans (W1_arg5 m ρ c)))
include hout in
/-- The second stage's result: the two aggregations side by side. -/
theorem W2_v1 (c : Dev nD) : W2 m ρ c (Proc.devRef .tc main_v1)
    = Spec.outCat (m ((c : Thread nD τ).loc main_arg4)) (m ((c : Thread nD τ).loc main_arg5))
        (Spec.innerCat (m ((c : Thread nD τ).loc main_arg0)) (m ((c : Thread nD τ).loc main_arg1)) (m ((c : Thread nD τ).loc main_arg2)) (m ((c : Thread nD τ).loc main_arg3))) := by
  refine (W2_arr m ρ c 3).trans ((hout (V1 m ρ) c).trans ?_)
  rw [show V1 m ρ c main_arg4 = _ from W1_arg4 m ρ c, show V1 m ρ c main_arg5 = _ from W1_arg5 m ρ c,
    show V1 m ρ c main_v0 = _ from W1_v0 m ρ c]

/-! ## After the slices -/

theorem W3_v2 (c : Dev nD) : W3 m ρ c (Proc.devRef .tc main_v2)
    = extractStridedSlice S4096x256 ![0, 0] (W2 m ρ c (Proc.devRef .tc main_v1)) slices_S4096x512_S4096x256_0_0 := by
  show StableHlo.after hostOps2 _ (Proc.devRef .tc main_v2) = _
  after_results
theorem W3_v3 (c : Dev nD) : W3 m ρ c (Proc.devRef .tc main_v3)
    = extractStridedSlice S4096x256 ![0, 256] (W2 m ρ c (Proc.devRef .tc main_v1)) slices_S4096x512_S4096x256_0_256 := by
  show StableHlo.after hostOps2 _ (Proc.devRef .tc main_v3) = _
  after_results
theorem W3_arg (c : Dev nD) (b : Ref sig .tc) (h2 : b ≠ main_v2) (h3 : b ≠ main_v3) :
    W3 m ρ c (Proc.devRef .tc b) = W2 m ρ c (Proc.devRef .tc b) := by
  show StableHlo.after hostOps2 _ (Proc.devRef .tc b) = _
  simp only [hostOps2, StableHlo.after_cons, StableHlo.after_nil]
  rw [StableHlo.unary_result_ne _ _ _ _ _ _ h3, StableHlo.unary_result_ne _ _ _ _ _ _ h2]

include hout in
/-- THE REFERENCE'S RUN, READ: every weakly fair execution terminates with the two results at the aggregations of the
    transformed features of the arguments, and the arguments unchanged. -/
theorem run : θ_run (defs (F := Ideal)) (onTc (τ := τ) (main (F := Ideal))) ⟨m, fun _ => 0, ρ⟩ fun r => ∀ c : Dev nD,
      r.2.mem ((c : Thread nD τ).loc main_v2) = Spec.outM (m ((c : Thread nD τ).loc main_arg0)) (m ((c : Thread nD τ).loc main_arg1)) (m ((c : Thread nD τ).loc main_arg2)) (m ((c : Thread nD τ).loc main_arg4))
      ∧ r.2.mem ((c : Thread nD τ).loc main_v3) = Spec.outS (m ((c : Thread nD τ).loc main_arg1)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨
      (h c _ (mem_uc main_v2 (by decide))).trans ((W3_v2 m ρ c).trans (by rw [W2_v1 m ρ hout c]; exact slice_left _ _ _ _ _ _ _)),
      (h c _ (mem_uc main_v3 (by decide))).trans ((W3_v3 m ρ c).trans (by rw [W2_v1 m ρ hout c]; exact slice_right _ _ _ _ _ _ _)),
      (h c _ (mem_uc main_arg0 (by decide))).trans ((W3_arg m ρ c main_arg0 (by decide) (by decide)).trans (W2_arg0 m ρ c)),
      (h c _ (mem_uc main_arg1 (by decide))).trans ((W3_arg m ρ c main_arg1 (by decide) (by decide)).trans (W2_arg1 m ρ c)),
      (h c _ (mem_uc main_arg2 (by decide))).trans ((W3_arg m ρ c main_arg2 (by decide) (by decide)).trans (W2_arg2 m ρ c)),
      (h c _ (mem_uc main_arg3 (by decide))).trans ((W3_arg m ρ c main_arg3 (by decide) (by decide)).trans (W2_arg3 m ρ c)),
      (h c _ (mem_uc main_arg4 (by decide))).trans ((W3_arg m ρ c main_arg4 (by decide) (by decide)).trans (W2_arg4 m ρ c)),
      (h c _ (mem_uc main_arg5 (by decide))).trans ((W3_arg m ρ c main_arg5 (by decide) (by decide)).trans (W2_arg5 m ρ c))⟩)
    (run_all m ρ)

end Cert.Proof.RefFinal

end
-- ==== Proof.RefHalves1.lean ====
/-
  The 256×512 output block as two 256×256 halves side by side.

  When the right half (columns 256–511) and the left half (columns 0–255) of the block have each been written whole,
  an entry in a column `q < 256` reads the left half's contents at the same row and column, and an entry in a column
  `q ≥ 256` reads the right half's contents at the same row, 256 columns to the left.
-/
import proofs.«104746_g2000202054435738_pallasbulk_107_12_alg».proof.Proof.Gen.ReferenceIdeal
import Idealize.ShloMosaic.Lib.Pipeline.FrameBody
import Idealize.ShloMosaic.Lib.ValueIdx

set_option maxRecDepth 16384

noncomputable section

namespace Cert.ReferenceIdeal.Reg1

open Cert.ReferenceIdeal Cert.ReferenceIdeal.Gen
open Idealize.ShloMosaic Idealize.ShloMosaic.ValueIdx

/-- The left and the right half of the 256×512 output block. -/
abbrev rL : Rect S256x512 := Rect.unit (s := S256x512) ![0, 0] S256x256.size inb_S256x512_S256x256_0_0
abbrev rR : Rect S256x512 := Rect.unit (s := S256x512) ![0, 256] S256x256.size inb_S256x512_S256x256_0_256

variable {Val : EltTy → Type} [∀ e, Nonempty (Val e)]

/-- A column of the left half reads the left half's contents. -/
theorem halves_left (wR wL : S256x256.Idx → Val .f32) (r : Fin 256) (q : Fin 512) (h : q.val < 256) :
    View.canon [(⟨rR, wR⟩ : View.Piece Val S256x512 .f32), ⟨rL, wL⟩] (ix2 r q) = wL (ix2 r ⟨q.val, h⟩) := by
  rw [View.canon_cons_of_not_mem _ _ (y := (ix2 r q : S256x512.Idx)) (fun hm => by
    have hm' : (ix2 r q : S256x512.Idx) ∈ (Rect.unit (s := S256x512) ![0, 256] S256x256.size inb_S256x512_S256x256_0_256).set := hm
    have h1 : 256 ≤ q.val := ((Rect.mem_set_unit (s := S256x512)).mp hm' (1 : Fin 2)).1
    omega)]
  have e : (ix2 r q : S256x512.Idx) = rL.emb (ix2 r ⟨q.val, h⟩) := funext fun a => Fin.ext (by
    match a with
    | ⟨0, _⟩ => show r.val = 0 + 1 * r.val; omega
    | ⟨1, _⟩ => show q.val = 0 + 1 * q.val; omega)
  rw [e]
  exact View.canon_cons_emb rL wL [] _

/-- A column of the right half reads the right half's contents, 256 columns to the left. -/
theorem halves_right (wR wL : S256x256.Idx → Val .f32) (r : Fin 256) (q : Fin 512) (h : ¬ q.val < 256) :
    View.canon [(⟨rR, wR⟩ : View.Piece Val S256x512 .f32), ⟨rL, wL⟩] (ix2 r q)
      = wR (ix2 r ⟨q.val - 256, by have := q.isLt; omega⟩) := by
  have e : (ix2 r q : S256x512.Idx) = rR.emb (ix2 r ⟨q.val - 256, by have := q.isLt; omega⟩) := funext fun a => Fin.ext (by
    match a with
    | ⟨0, _⟩ => show r.val = 0 + 1 * r.val; omega
    | ⟨1, _⟩ => show q.val = 256 + 1 * (q.val - 256); omega)
  rw [e]
  exact View.canon_cons_emb rR wR _ _

end Cert.ReferenceIdeal.Reg1

end
-- ==== Proof.RefPieces1.lean ====
/-
  The aggregation stage: what each case of its body leaves, as the body's own arithmetic applied to the blocks it read.

  The body keeps two 256×256 accumulators.  At a row panel's first column block it stores the zero block into each and
  then adds this block's product; at a later column block it adds this block's product to what the accumulator held; at
  the last column block it also copies the two accumulators side by side into the 256×512 output block.  Every load
  and store takes a whole buffer (the two copies: the left and the right half of the output block), so what is left in an
  accumulator is the one payload of the last store, with each load replaced by the contents it read.
-/
import proofs.«104746_g2000202054435738_pallasbulk_107_12_alg».proof.Proof.RefRegion1
import proofs.«104746_g2000202054435738_pallasbulk_107_12_alg».proof.Proof.RefHalves1
import Idealize.ShloMosaic.Lib.Pipeline.Value
import Idealize.ShloMosaic.Lib.Tactic

set_option maxRecDepth 16384

noncomputable section

namespace Cert.ReferenceIdeal.Reg1

open Cert.ReferenceIdeal Cert.ReferenceIdeal.Gen
open Idealize.ShloMosaic Idealize.ShloMosaic.TcCoe Idealize.ShloMosaic.Tactic Idealize.SL.Sem
open Idealize.ShloMosaic.Pipeline (Dat)

variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

/-! ## A row panel's first column block: zero, then this block's product -/

set_option maxHeartbeats 400000 in
theorem sA0_eq (c : Dev nD) (t : Fin cfg1.N) (h0 : t.val % 8 = 0) :
    sA0 V c t h0 = k1_pay4 (iblk1 V c 2 t) (k1_pay1 (F := F)) (iblk1 V c 0 t) := by
  unfold sA0
  rw [View.read_writes_eq_canon _ _ _ (scover1_A_0 c _ _ _ _ _ _ _ _ _ _ _ _ _ _ _ _ _ _)]
  unfold kernelRun1_A
  dsimp only
  sl_unfold_words
  rw [View.canon_cons_unit_zero (S := S256x256) hz1, View.readCov_unit_zero (S := S256x256) _ hz1]
  simp only [View.readAt_eq_ld, (hs1_2 t).read_unread, (hs1_0 t).read_unread,
    View.ld_unit_zero (S := S512x512) hz1, View.ld_unit_zero (S := S256x512) hz1]

set_option maxHeartbeats 400000 in
theorem sA1_eq (c : Dev nD) (t : Fin cfg1.N) (h0 : t.val % 8 = 0) :
    sA1 V c t h0 = k1_pay5 (iblk1 V c 2 t) (k1_pay2 (F := F)) (iblk1 V c 1 t) := by
  unfold sA1
  rw [View.read_writes_eq_canon _ _ _ (scover1_A_1 c _ _ _ _ _ _ _ _ _ _ _ _ _ _ _ _ _ _)]
  unfold kernelRun1_A
  dsimp only
  sl_unfold_words
  rw [View.canon_cons_unit_zero (S := S256x256) hz1, View.readCov_unit_zero (S := S256x256) _ hz1]
  simp only [View.readAt_eq_ld, (hs1_2 t).read_unread, (hs1_1 t).read_unread,
    View.ld_unit_zero (S := S512x512) hz1, View.ld_unit_zero (S := S256x512) hz1]

/-! ## A middle column block: this block's product added to what the accumulator held -/

set_option maxHeartbeats 400000 in
theorem sB0_eq (c : Dev nD) (t : Fin cfg1.N) (h0 : ¬t.val % 8 = 0) (h7 : ¬t.val % 8 = 7) (xs0 xs1 : Vec F S256x256 .f32) :
    sB0 V c t h0 h7 xs0 xs1 = k1_pay4 (iblk1 V c 2 t) xs0 (iblk1 V c 0 t) := by
  unfold sB0
  rw [View.read_writes_eq_canon _ _ _ (scover1_B_0 c _ _ _ _ _ _ _ _ _ _ _ _ _ _ _ _ _ _ _ _)]
  unfold kernelRun1_B
  dsimp only
  rw [View.canon_unit_zero hz1]
  simp only [View.readAt_eq_ld, (hs1_2 t).read_unread, (hs1_0 t).read_unread, (Memref.isWhole_whole cc1_scratch0).read_unread,
    View.ld_unit_zero (S := S512x512) hz1, View.ld_unit_zero (S := S256x512) hz1, View.ld_unit_zero (S := S256x256) hz1]

set_option maxHeartbeats 400000 in
theorem sB1_eq (c : Dev nD) (t : Fin cfg1.N) (h0 : ¬t.val % 8 = 0) (h7 : ¬t.val % 8 = 7) (xs0 xs1 : Vec F S256x256 .f32) :
    sB1 V c t h0 h7 xs0 xs1 = k1_pay5 (iblk1 V c 2 t) xs1 (iblk1 V c 1 t) := by
  unfold sB1
  rw [View.read_writes_eq_canon _ _ _ (scover1_B_1 c _ _ _ _ _ _ _ _ _ _ _ _ _ _ _ _ _ _ _ _)]
  unfold kernelRun1_B
  dsimp only
  rw [View.canon_unit_zero hz1]
  simp only [View.readAt_eq_ld, (hs1_2 t).read_unread, (hs1_1 t).read_unread, (Memref.isWhole_whole cc1_scratch1).read_unread,
    View.ld_unit_zero (S := S512x512) hz1, View.ld_unit_zero (S := S256x512) hz1, View.ld_unit_zero (S := S256x256) hz1]

/-! ## The last column block: the same addition, and the two accumulators copied side by side -/

set_option maxHeartbeats 400000 in
theorem sC0_eq (c : Dev nD) (t : Fin cfg1.N) (h7 : t.val % 8 = 7) (xs0 xs1 : Vec F S256x256 .f32) :
    sC0 V c t h7 xs0 xs1 = k1_pay4 (iblk1 V c 2 t) xs0 (iblk1 V c 0 t) := by
  unfold sC0
  rw [View.read_writes_eq_canon _ _ _ (scover1_C_0 c _ _ _ _ _ _ _ _ _ _ _ _ _ _ _ _ _ _ _ _)]
  unfold kernelRun1_C
  dsimp only
  try sl_unfold_words
  rw [View.canon_unit_zero hz1]
  simp only [View.readAt_eq_ld, (hs1_2 t).read_unread, (hs1_0 t).read_unread, (Memref.isWhole_whole cc1_scratch0).read_unread,
    View.ld_unit_zero (S := S512x512) hz1, View.ld_unit_zero (S := S256x512) hz1, View.ld_unit_zero (S := S256x256) hz1]

set_option maxHeartbeats 400000 in
theorem sC1_eq (c : Dev nD) (t : Fin cfg1.N) (h7 : t.val % 8 = 7) (xs0 xs1 : Vec F S256x256 .f32) :
    sC1 V c t h7 xs0 xs1 = k1_pay5 (iblk1 V c 2 t) xs1 (iblk1 V c 1 t) := by
  unfold sC1
  rw [View.read_writes_eq_canon _ _ _ (scover1_C_1 c _ _ _ _ _ _ _ _ _ _ _ _ _ _ _ _ _ _ _ _)]
  unfold kernelRun1_C
  dsimp only
  try sl_unfold_words
  rw [View.canon_unit_zero hz1]
  simp only [View.readAt_eq_ld, (hs1_2 t).read_unread, (hs1_1 t).read_unread, (Memref.isWhole_whole cc1_scratch1).read_unread,
    View.ld_unit_zero (S := S512x512) hz1, View.ld_unit_zero (S := S256x512) hz1, View.ld_unit_zero (S := S256x256) hz1]

set_option maxHeartbeats 400000 in
/-- The output block at the last column block: the second accumulator's new contents in the right half, the first
    accumulator's in the left half. -/
theorem oC3_eq (c : Dev nD) (t : Fin cfg1.N) (h7 : t.val % 8 = 7) (xs0 xs1 : Vec F S256x256 .f32) :
    oC3 V c t h7 xs0 xs1 = View.canon [(⟨rR, k1_pay5 (iblk1 V c 2 t) xs1 (iblk1 V c 1 t)⟩ : View.Piece (Elt F) S256x512 .f32),
      ⟨rL, k1_pay4 (iblk1 V c 2 t) xs0 (iblk1 V c 0 t)⟩] := by
  unfold oC3
  rw [View.read_writes_eq_canon _ _ _ (cover1_C_3 c _ _ _ _ _ _ _ _ _ _ _ _ _ _ _ _ _ _ _ _)]
  unfold kernelRun1_C
  dsimp only
  sl_unfold_words
  rw [View.readCov_unit_zero (S := S256x256) _ hz1, View.readCov_unit_zero (S := S256x256) _ hz1]
  simp only [View.readAt_eq_ld, (hs1_2 t).read_unread, (hs1_0 t).read_unread, (hs1_1 t).read_unread,
    (Memref.isWhole_whole cc1_scratch0).read_unread, (Memref.isWhole_whole cc1_scratch1).read_unread,
    View.ld_unit_zero (S := S512x512) hz1, View.ld_unit_zero (S := S256x512) hz1, View.ld_unit_zero (S := S256x256) hz1]

end Cert.ReferenceIdeal.Reg1

end
-- ==== Proof.RefPayload1.lean ====
/-
  The aggregation kernel's arithmetic at an index, on the extended reals.

  Its two accumulators start from the zero word, which reads as 0.  A step adds to an accumulator block the product
  of a [256,512] adjacency tile with one half of the [512,512] tile of transformed features — columns 0–255 for the
  first accumulator, columns 256–511 for the second —, and a product into the zero accumulator is the plain sum over
  the 512 contracted nodes: entry (r, j) becomes acc[r,j] + Σ_x a[r,x] · inner[x, off + j].
-/
import proofs.«104746_g2000202054435738_pallasbulk_107_12_alg».proof.Proof.Gen.ReferenceIdeal.Skeleton
import Idealize.ShloMosaic.Lib.ValueIdx
import Idealize.ShloMosaic.PureOps.Ideal.Laws
import Idealize.ShloMosaic.Lib.Pipeline.Value

noncomputable section

namespace Cert.ReferenceIdeal.Reg1

open Cert.ReferenceIdeal Cert.ReferenceIdeal.Gen Idealize.ShloMosaic Idealize.ShloMosaic.ValueIdx

theorem tile_lhs0 (i : S256x256.Idx) (q : dot_S256x512_S512x256_S256x256_1_0_0_1_n_n.contr.Idx) : (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl

theorem tile_rhs1 (i : S256x256.Idx) (q : dot_S256x512_S512x256_S256x256_1_0_0_1_n_n.contr.Idx) : (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- The tile product ([256,512] × [512,256]) at entry (p, j): the sum over the tile's 512 nodes. -/
theorem tile_apply {φ₁ φ₂ : FTy} (a : FVec Ideal S256x512 φ₁) (b : FVec Ideal S512x256 φ₂) (p : Fin 256) (j : Fin 256) :
    matmul dot_S256x512_S512x256_S256x256_1_0_0_1_n_n none a b (constant (F := Ideal) S256x256 .f32 0x00000000#32) (ix2 p j)
      = ∑ l : Fin 512, a (ix2 p l) * b (ix2 l j) := by
  refine (Ideal.matmul_constant_zero_apply dot_S256x512_S512x256_S256x256_1_0_0_1_n_n none a b (ix2 p j)).trans ?_
  rw [← Equiv.sum_comp (contrEquiv1 dot_S256x512_S512x256_S256x256_1_0_0_1_n_n 512 rfl rfl).symm]
  refine Finset.sum_congr rfl fun l _ => ?_
  have hl := contrEquiv1_symm_val dot_S256x512_S512x256_S256x256_1_0_0_1_n_n 512 rfl rfl l
  have el : dot_S256x512_S512x256_S256x256_1_0_0_1_n_n.lhsIdx (ix2 p j) ((contrEquiv1 dot_S256x512_S512x256_S256x256_1_0_0_1_n_n 512 rfl rfl).symm l) = ix2 p l := funext fun x => Fin.ext (by
    match x with
    | ⟨0, _⟩ => exact tile_lhs0 _ _
    | ⟨1, _⟩ => exact (dot_S256x512_S512x256_S256x256_1_0_0_1_n_n.lhsIdx_val_of_single rfl _ _).trans hl)
  have er : dot_S256x512_S512x256_S256x256_1_0_0_1_n_n.rhsIdx (ix2 p j) ((contrEquiv1 dot_S256x512_S512x256_S256x256_1_0_0_1_n_n 512 rfl rfl).symm l) = ix2 l j := funext fun x => Fin.ext (by
    match x with
    | ⟨0, _⟩ => exact (dot_S256x512_S512x256_S256x256_1_0_0_1_n_n.rhsIdx_val_of_single rfl _ _).trans hl
    | ⟨1, _⟩ => exact tile_rhs1 _ _)
  rw [el, er]

/-- The first accumulator's start value reads 0 everywhere. -/
theorem pay1_apply (r j : Fin 256) : (k1_pay1 (F := Ideal)) (ix2 r j) = 0 := by
  unfold k1_pay1
  refine (congrFun (shapeCast_self _ _) (ix2 r j)).trans ?_
  show Ideal.ofBits .f32 0x00000000#32 = 0
  exact Ideal.ofBits_zero_f32

/-- The second accumulator's start value reads 0 everywhere. -/
theorem pay2_apply (r j : Fin 256) : (k1_pay2 (F := Ideal)) (ix2 r j) = 0 := by
  unfold k1_pay2
  refine (congrFun (shapeCast_self _ _) (ix2 r j)).trans ?_
  show Ideal.ofBits .f32 0x00000000#32 = 0
  exact Ideal.ofBits_zero_f32

/-- An accumulator plus a tile product, at (r, j): the accumulator's entry plus the sum over the tile's nodes. -/
theorem step_apply (acc : FVec Ideal S256x256 .f32) (a : FVec Ideal S256x512 .f32) (b : FVec Ideal S512x256 .f32) (r j : Fin 256) :
    shapeCast S256x256 (addf acc (matmul dot_S256x512_S512x256_S256x256_1_0_0_1_n_n none a b (constant (F := Ideal) S256x256 .f32 0x00000000#32))) shapeCasts_S256x256_S256x256 (ix2 r j)
      = acc (ix2 r j) + ∑ x : Fin 512, a (ix2 r x) * b (ix2 x j) := by
  refine (congrFun (shapeCast_self _ _) (ix2 r j)).trans ?_
  exact congrArg (acc (ix2 r j) + ·) (tile_apply a b r j)

/-- Columns 0–255 of the feature tile, at (x, j): the tile's entry (x, j). -/
theorem half4_apply (x2 : FVec Ideal S512x512 .f32) (x : Fin 512) (j : Fin 256) :
    extractStridedSlice S512x256 ![0, 0] (k1_pay3 (F := Ideal) x2) slices_S512x512_o0_0_S512x256 (ix2 x j) = x2 (ix2 x ⟨j.val, by omega⟩) := by
  unfold extractStridedSlice k1_pay3
  refine (congrFun (shapeCast_self _ _) _).trans ?_
  congr 1
  funext a
  apply Fin.ext
  match a with
  | ⟨0, _⟩ => show 0 + x.val = x.val; omega
  | ⟨1, _⟩ => show 0 + j.val = j.val; omega

/-- One step of the first accumulator at (r, j): the old entry plus the adjacency tile's row r against column
    j of the feature tile, summed over the 512 nodes of the tile. -/
theorem pay4_apply (x2 : FVec Ideal S512x512 .f32) (acc : FVec Ideal S256x256 .f32) (x0 : FVec Ideal S256x512 .f32) (r j : Fin 256) :
    k1_pay4 x2 acc x0 (ix2 r j) = acc (ix2 r j) + ∑ x : Fin 512, x0 (ix2 r x) * x2 (ix2 x ⟨j.val, by omega⟩) := by
  unfold k1_pay4
  refine (step_apply acc x0 _ r j).trans ?_
  exact congrArg (acc (ix2 r j) + ·) (Finset.sum_congr rfl fun x _ => congrArg (x0 (ix2 r x) * ·) (half4_apply x2 x j))

/-- Columns 256–511 of the feature tile, at (x, j): the tile's entry (x, 256 + j). -/
theorem half5_apply (x2 : FVec Ideal S512x512 .f32) (x : Fin 512) (j : Fin 256) :
    extractStridedSlice S512x256 ![0, 256] (k1_pay3 (F := Ideal) x2) slices_S512x512_o0_256_S512x256 (ix2 x j) = x2 (ix2 x ⟨256 + j.val, by omega⟩) := by
  unfold extractStridedSlice k1_pay3
  refine (congrFun (shapeCast_self _ _) _).trans ?_
  congr 1
  funext a
  apply Fin.ext
  match a with
  | ⟨0, _⟩ => show 0 + x.val = x.val; omega
  | ⟨1, _⟩ => show 256 + j.val = 256 + j.val; omega

/-- One step of the second accumulator at (r, j): the old entry plus the adjacency tile's row r against column
    256 + j of the feature tile, summed over the 512 nodes of the tile. -/
theorem pay5_apply (x2 : FVec Ideal S512x512 .f32) (acc : FVec Ideal S256x256 .f32) (x1 : FVec Ideal S256x512 .f32) (r j : Fin 256) :
    k1_pay5 x2 acc x1 (ix2 r j) = acc (ix2 r j) + ∑ x : Fin 512, x1 (ix2 r x) * x2 (ix2 x ⟨256 + j.val, by omega⟩) := by
  unfold k1_pay5
  refine (step_apply acc x1 _ r j).trans ?_
  exact congrArg (acc (ix2 r j) + ·) (Finset.sum_congr rfl fun x _ => congrArg (x1 (ix2 r x) * ·) (half5_apply x2 x j))

end Cert.ReferenceIdeal.Reg1

end
-- ==== Proof.LibSumBlocks.lean ====
import Mathlib.Algebra.BigOperators.Fin
import Mathlib.Logic.Equiv.Fin.Basic

/-!
# A sum over `q · n` indices as `q` blocks of `n`

In any commutative additive monoid — in particular on the extended reals, where no finiteness is needed — a sum
over `Fin (q * n)` is the sum over the `q` consecutive blocks of the sums over each block's `n` indices.
-/

namespace Cert.LibSumBlocks

theorem block_lt {q n : ℕ} (j : Fin q) (k : Fin n) : n * j.val + k.val < q * n := by
  have hj := j.isLt; have hk := k.isLt
  calc n * j.val + k.val < n * j.val + n := by omega
    _ = n * (j.val + 1) := by rw [Nat.mul_add, Nat.mul_one]
    _ ≤ n * q := Nat.mul_le_mul_left _ hj
    _ = q * n := Nat.mul_comm _ _

/-- The sum over `Fin (q * n)`, block by block. -/
theorem sum_blocks {M : Type*} [AddCommMonoid M] (q n : ℕ) (f : Fin (q * n) → M) :
    ∑ i, f i = ∑ j : Fin q, ∑ k : Fin n, f ⟨n * j.val + k.val, block_lt j k⟩ := by
  rw [← (finProdFinEquiv (m := q) (n := n)).sum_comp, Fintype.sum_prod_type]
  refine Finset.sum_congr rfl fun j _ => Finset.sum_congr rfl fun k _ => ?_
  congr 1
  apply Fin.ext
  show k.val + n * j.val = n * j.val + k.val
  exact Nat.add_comm _ _

end Cert.LibSumBlocks
-- ==== Proof.RefSums1.lean ====
/-
  The aggregation's sum over all 4096 nodes as eight partial sums over 512 consecutive nodes.

  `blockSum a inner row col b` is column block `b`'s share Σ_{x < 512} a[row, 512·b + x] · inner[512·b + x, col] of the entry at
  (`row`, `col`), and `partSum … m` the sum of the first `m` shares.  Adding the next share to `partSum … m` gives
  `partSum … (m + 1)`, and the eight shares together are the sum over all nodes — on the extended reals, where addition is
  commutative and associative with 0 neutral, so no finiteness is asked.
-/
import proofs.«104746_g2000202054435738_pallasbulk_107_12_alg».proof.Proof.Spec
import proofs.«104746_g2000202054435738_pallasbulk_107_12_alg».proof.Proof.LibSumBlocks

noncomputable section

namespace Cert.ReferenceIdeal.Reg1

open Idealize.ShloMosaic Idealize.ShloMosaic.ValueIdx
open Cert.Proof

/-- Column block `b`'s share of the aggregated entry at (`row`, `col`); there are eight blocks. -/
def blockSum (a : Spec.Arr 4096 4096) (inner : Spec.Arr 4096 512) (row : Fin 4096) (col : Fin 512) (b : ℕ) : EReal :=
  if hb : b < 8 then
    ∑ x : Fin 512, a (ix2 row ⟨512 * b + x.val, by have := x.isLt; omega⟩) * inner (ix2 ⟨512 * b + x.val, by have := x.isLt; omega⟩ col)
  else 0

/-- The first `m` column blocks' shares added. -/
def partSum (a : Spec.Arr 4096 4096) (inner : Spec.Arr 4096 512) (row : Fin 4096) (col : Fin 512) (m : ℕ) : EReal :=
  ∑ b ∈ Finset.range m, blockSum a inner row col b

theorem partSum_one (a : Spec.Arr 4096 4096) (inner : Spec.Arr 4096 512) (row : Fin 4096) (col : Fin 512) :
    partSum a inner row col 1 = blockSum a inner row col 0 := Finset.sum_range_one _

theorem partSum_succ (a : Spec.Arr 4096 4096) (inner : Spec.Arr 4096 512) (row : Fin 4096) (col : Fin 512) (m : ℕ) :
    partSum a inner row col (m + 1) = partSum a inner row col m + blockSum a inner row col m := Finset.sum_range_succ _ _

/-- All eight shares: the sum over every node. -/
theorem partSum_eight (a : Spec.Arr 4096 4096) (inner : Spec.Arr 4096 512) (row : Fin 4096) (col : Fin 512) :
    partSum a inner row col 8 = ∑ k : Fin 4096, a (ix2 row k) * inner (ix2 k col) := by
  unfold partSum
  rw [Finset.sum_range]
  refine Eq.trans ?_ (Cert.LibSumBlocks.sum_blocks 8 512 (fun k : Fin (8 * 512) => a (ix2 row k) * inner (ix2 k col))).symm
  refine Finset.sum_congr rfl fun j _ => ?_
  unfold blockSum
  rw [dif_pos j.isLt]

/-- One block's product row: when `x0` is the (i, q) block of `a` and `x2` is row block q of `inner`, the product of row
    `r` of `x0` with column `col` of `x2` is column block `q`'s share at row 256·i + r. -/
theorem block_share (a : Spec.Arr 4096 4096) (inner : Spec.Arr 4096 512)
    (x0 : (⟨2, ![256, 512]⟩ : Shape).Idx → EReal) (x2 : (⟨2, ![512, 512]⟩ : Shape).Idx → EReal) (i q : ℕ) (hi : i < 16) (hq : q < 8)
    (h0 : ∀ (r : Fin 256) (x : Fin 512), x0 (ix2 r x)
      = a (ix2 ⟨256 * i + r.val, by have := r.isLt; omega⟩ ⟨512 * q + x.val, by have := x.isLt; omega⟩))
    (h2 : ∀ (x : Fin 512) (col : Fin 512), x2 (ix2 x col) = inner (ix2 ⟨512 * q + x.val, by have := x.isLt; omega⟩ col))
    (r : Fin 256) (col : Fin 512) :
    ∑ x : Fin 512, x0 (ix2 r x) * x2 (ix2 x col)
      = blockSum a inner ⟨256 * i + r.val, by have := r.isLt; omega⟩ col q := by
  unfold blockSum
  rw [dif_pos hq]
  exact Finset.sum_congr rfl fun x _ => by rw [h0, h2]

end Cert.ReferenceIdeal.Reg1

end
-- ==== Proof.RefReads1.lean ====
/-
  The aggregation stage's blocks as parts of the arrays the stage finds.

  At point t = 8·i + q (row panel i = t / 8, column block q = t % 8): the blocks of the two adjacency matrices are rows
  256·i … 256·i + 255, columns 512·q … 512·q + 511; the block of the first stage's result is rows 512·q … 512·q + 511, all
  512 columns; the output block is rows 256·i … 256·i + 255, all 512 columns.
-/
import proofs.«104746_g2000202054435738_pallasbulk_107_12_alg».proof.Proof.RefReg1Base
import proofs.«104746_g2000202054435738_pallasbulk_107_12_alg».proof.Proof.Spec

set_option maxRecDepth 16384

noncomputable section

namespace Cert.ReferenceIdeal.Reg1

open Cert.ReferenceIdeal Cert.ReferenceIdeal.Gen
open Idealize.ShloMosaic Idealize.ShloMosaic.TcCoe Idealize.ShloMosaic.ValueIdx Idealize.SL.Sem
open Cert.Proof

variable (V : (c : Dev nD) → (b : Ref sig .tc) → Buf (Elt Ideal) ((c : Thread nD τ).loc b))

/-- Where each array's block sits at point `t`. -/
theorem idx_facts1 : ∀ t : Fin cfg1.N, win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-- The first adjacency matrix's block. -/
theorem read_adj1 (c : Dev nD) (t : Fin cfg1.N) (r : Fin 256) (x : Fin 512)
    (hr : 256 * (t.val / 8) + r.val < 4096) (hx : 512 * (t.val % 8) + x.val < 4096) :
    (iblk1 V c 0 t : Vec Ideal S256x512 .f32) (ix2 r x)
      = (V c main_arg4 : Spec.Arr 4096 4096) (ix2 ⟨256 * (t.val / 8) + r.val, hr⟩ ⟨512 * (t.val % 8) + x.val, hx⟩) := by
  obtain ⟨e0, e1, -⟩ := idx_facts1 t
  unfold iblk1
  rw [View.read_apply]
  show V c main_arg4 _ = V c main_arg4 _
  refine congrArg (V c main_arg4) ?_
  funext a
  apply Fin.ext
  match a with
  | ⟨0, _⟩ => show win1_0.index t (0 : Fin 2) * 256 + 1 * r.val = 256 * (t.val / 8) + r.val; rw [e0]; omega
  | ⟨1, _⟩ => show win1_0.index t (1 : Fin 2) * 512 + 1 * x.val = 512 * (t.val % 8) + x.val; rw [e1]; omega

/-- The second adjacency matrix's block. -/
theorem read_adj2 (c : Dev nD) (t : Fin cfg1.N) (r : Fin 256) (x : Fin 512)
    (hr : 256 * (t.val / 8) + r.val < 4096) (hx : 512 * (t.val % 8) + x.val < 4096) :
    (iblk1 V c 1 t : Vec Ideal S256x512 .f32) (ix2 r x)
      = (V c main_arg5 : Spec.Arr 4096 4096) (ix2 ⟨256 * (t.val / 8) + r.val, hr⟩ ⟨512 * (t.val % 8) + x.val, hx⟩) := by
  obtain ⟨-, -, e0, e1, -⟩ := idx_facts1 t
  unfold iblk1
  rw [View.read_apply]
  show V c main_arg5 _ = V c main_arg5 _
  refine congrArg (V c main_arg5) ?_
  funext a
  apply Fin.ext
  match a with
  | ⟨0, _⟩ => show win1_1.index t (0 : Fin 2) * 256 + 1 * r.val = 256 * (t.val / 8) + r.val; rw [e0]; omega
  | ⟨1, _⟩ => show win1_1.index t (1 : Fin 2) * 512 + 1 * x.val = 512 * (t.val % 8) + x.val; rw [e1]; omega

/-- The first stage's result's block. -/
theorem read_inner (c : Dev nD) (t : Fin cfg1.N) (x : Fin 512) (col : Fin 512) (hx : 512 * (t.val % 8) + x.val < 4096) :
    (iblk1 V c 2 t : Vec Ideal S512x512 .f32) (ix2 x col)
      = (V c main_v0 : Spec.Arr 4096 512) (ix2 ⟨512 * (t.val % 8) + x.val, hx⟩ col) := by
  obtain ⟨-, -, -, -, e0, e1, -⟩ := idx_facts1 t
  unfold iblk1
  rw [View.read_apply]
  show V c main_v0 _ = V c main_v0 _
  refine congrArg (V c main_v0) ?_
  funext a
  apply Fin.ext
  match a with
  | ⟨0, _⟩ => show win1_2.index t (0 : Fin 2) * 512 + 1 * x.val = 512 * (t.val % 8) + x.val; rw [e0]; omega
  | ⟨1, _⟩ => show win1_2.index t (1 : Fin 2) * 512 + 1 * col.val = col.val; rw [e1]; omega

end Cert.ReferenceIdeal.Reg1

end
-- ==== Proof.RefAccum1.lean ====
/-
  The aggregation stage's two accumulators after every point, in closed form.

  After point t = 8·i + q the first accumulator's entry (r, j) is the sum of the shares of column blocks 0 … q of the
  entry at row 256·i + r, column j of the first aggregation (adjacency matrix 1 against the first stage's result), and
  the second accumulator's is the same for the second adjacency matrix and column 256 + j.  At q = 0 the body adds
  block 0's share to the zero it has just stored, and 0 + s = s; at a later q it adds block q's share to what point
  t − 1 left, which by induction is the sum of the shares of blocks 0 … q − 1 of the same row.
-/
import proofs.«104746_g2000202054435738_pallasbulk_107_12_alg».proof.Proof.RefPieces1
import proofs.«104746_g2000202054435738_pallasbulk_107_12_alg».proof.Proof.RefPayload1
import proofs.«104746_g2000202054435738_pallasbulk_107_12_alg».proof.Proof.RefSums1
import proofs.«104746_g2000202054435738_pallasbulk_107_12_alg».proof.Proof.RefReads1

set_option maxRecDepth 16384

noncomputable section

namespace Cert.ReferenceIdeal.Reg1

open Cert.ReferenceIdeal Cert.ReferenceIdeal.Gen
open Idealize.ShloMosaic Idealize.ShloMosaic.TcCoe Idealize.ShloMosaic.ValueIdx Idealize.SL.Sem
open Cert.Proof

variable (V : (c : Dev nD) → (b : Ref sig .tc) → Buf (Elt Ideal) ((c : Thread nD τ).loc b))

/-- The row of the 4096-row arrays that row `r` of point `n`'s row panel is. -/
abbrev rowAt (n : ℕ) (hn : n < 128) (r : Fin 256) : Fin 4096 := ⟨256 * (n / 8) + r.val, by have := r.isLt; omega⟩
/-- Column `j` of the left half, and of the right half, of the 512 columns. -/
abbrev colL (j : Fin 256) : Fin 512 := ⟨j.val, by have := j.isLt; omega⟩
abbrev colR (j : Fin 256) : Fin 512 := ⟨256 + j.val, by have := j.isLt; omega⟩

/-- The three blocks the body reads at point `t`, under their plain types. -/
def blkA1 (c : Dev nD) (t : Fin cfg1.N) : FVec Ideal S256x512 .f32 := iblk1 V c 0 t
def blkA2 (c : Dev nD) (t : Fin cfg1.N) : FVec Ideal S256x512 .f32 := iblk1 V c 1 t
def blkI (c : Dev nD) (t : Fin cfg1.N) : FVec Ideal S512x512 .f32 := iblk1 V c 2 t

/-- The product the first accumulator receives at point `t` is column block `t % 8`'s share. -/
theorem share1 (c : Dev nD) (t : Fin cfg1.N) (hN : t.val < 128) (r j : Fin 256) :
    ∑ x : Fin 512, blkA1 V c t (ix2 r x) * blkI V c t (ix2 x (colL j))
      = blockSum (V c main_arg4) (V c main_v0) (rowAt t.val hN r) (colL j) (t.val % 8) :=
  block_share (V c main_arg4) (V c main_v0) (blkA1 V c t) (blkI V c t) (t.val / 8) (t.val % 8) (by omega) (by omega)
    (fun r x => read_adj1 V c t r x _ _) (fun x col => read_inner V c t x col _) r (colL j)

/-- The product the second accumulator receives at point `t`. -/
theorem share2 (c : Dev nD) (t : Fin cfg1.N) (hN : t.val < 128) (r j : Fin 256) :
    ∑ x : Fin 512, blkA2 V c t (ix2 r x) * blkI V c t (ix2 x (colR j))
      = blockSum (V c main_arg5) (V c main_v0) (rowAt t.val hN r) (colR j) (t.val % 8) :=
  block_share (V c main_arg5) (V c main_v0) (blkA2 V c t) (blkI V c t) (t.val / 8) (t.val % 8) (by omega) (by omega)
    (fun r x => read_adj2 V c t r x _ _) (fun x col => read_inner V c t x col _) r (colR j)

/-- One step of the first accumulator, the product named. -/
theorem acc_step1 (x2 : FVec Ideal S512x512 .f32) (acc : FVec Ideal S256x256 .f32) (x0 : FVec Ideal S256x512 .f32) (s : EReal)
    (r j : Fin 256) (hs : ∑ x : Fin 512, x0 (ix2 r x) * x2 (ix2 x (colL j)) = s) :
    k1_pay4 x2 acc x0 (ix2 r j) = acc (ix2 r j) + s :=
  (pay4_apply x2 acc x0 r j).trans (congrArg (acc (ix2 r j) + ·) hs)

/-- One step of the second accumulator, the product named. -/
theorem acc_step2 (x2 : FVec Ideal S512x512 .f32) (acc : FVec Ideal S256x256 .f32) (x1 : FVec Ideal S256x512 .f32) (s : EReal)
    (r j : Fin 256) (hs : ∑ x : Fin 512, x1 (ix2 r x) * x2 (ix2 x (colR j)) = s) :
    k1_pay5 x2 acc x1 (ix2 r j) = acc (ix2 r j) + s :=
  (pay5_apply x2 acc x1 r j).trans (congrArg (acc (ix2 r j) + ·) hs)

set_option maxHeartbeats 1000000 in
/-- At a row panel's first point the first accumulator holds zero plus block 0's share, -/
theorem first1 (c : Dev nD) (t : Fin cfg1.N) (hN : t.val < 128) (h0 : t.val % 8 = 0) (r j : Fin 256) :
    (outsAt1 V c t.val t.isLt).2.1 (ix2 r j)
      = 0 + blockSum (V c main_arg4) (V c main_v0) (rowAt t.val hN r) (colL j) (t.val % 8) := by
  have e : (outsAt1 V c t.val t.isLt).2.1 = k1_pay4 (F := Ideal) (blkI V c t) (k1_pay1 (F := Ideal)) (blkA1 V c t) := by
    rw [outsAt1_A V c t h0]
    exact sA0_eq V c t h0
  refine (congrFun e (ix2 r j)).trans ?_
  refine (acc_step1 (blkI V c t) (k1_pay1 (F := Ideal)) (blkA1 V c t) _ r j (share1 V c t hN r j)).trans ?_
  exact congrArg (· + _) (pay1_apply r j)

set_option maxHeartbeats 1000000 in
/-- and the second likewise. -/
theorem first2 (c : Dev nD) (t : Fin cfg1.N) (hN : t.val < 128) (h0 : t.val % 8 = 0) (r j : Fin 256) :
    (outsAt1 V c t.val t.isLt).2.2 (ix2 r j)
      = 0 + blockSum (V c main_arg5) (V c main_v0) (rowAt t.val hN r) (colR j) (t.val % 8) := by
  have e : (outsAt1 V c t.val t.isLt).2.2 = k1_pay5 (F := Ideal) (blkI V c t) (k1_pay2 (F := Ideal)) (blkA2 V c t) := by
    rw [outsAt1_A V c t h0]
    exact sA1_eq V c t h0
  refine (congrFun e (ix2 r j)).trans ?_
  refine (acc_step2 (blkI V c t) (k1_pay2 (F := Ideal)) (blkA2 V c t) _ r j (share2 V c t hN r j)).trans ?_
  exact congrArg (· + _) (pay2_apply r j)

/-- At a row panel's first point: zero plus block 0's share. -/
theorem step_first (c : Dev nD) (t : Fin cfg1.N) (hN : t.val < 128) (h0 : t.val % 8 = 0) (r j : Fin 256) :
    (outsAt1 V c t.val t.isLt).2.1 (ix2 r j) = 0 + blockSum (V c main_arg4) (V c main_v0) (rowAt t.val hN r) (colL j) (t.val % 8)
    ∧ (outsAt1 V c t.val t.isLt).2.2 (ix2 r j) = 0 + blockSum (V c main_arg5) (V c main_v0) (rowAt t.val hN r) (colR j) (t.val % 8) :=
  ⟨first1 V c t hN h0 r j, first2 V c t hN h0 r j⟩

set_option maxHeartbeats 1000000 in
/-- At a later point the first accumulator holds what the point before left plus this block's share, -/
theorem next1 (c : Dev nD) (t : Fin cfg1.N) (hN : t.val < 128) (h0 : ¬t.val % 8 = 0) (r j : Fin 256) :
    (outsAt1 V c t.val t.isLt).2.1 (ix2 r j)
      = (prev1 V c t).2.1 (ix2 r j) + blockSum (V c main_arg4) (V c main_v0) (rowAt t.val hN r) (colL j) (t.val % 8) := by
  have e : (outsAt1 V c t.val t.isLt).2.1 = k1_pay4 (blkI V c t) (prev1 V c t).2.1 (blkA1 V c t) := by
    by_cases h7 : t.val % 8 = 7
    · rw [outsAt1_C V c t h7]
      exact sC0_eq V c t h7 (prev1 V c t).2.1 (prev1 V c t).2.2
    · rw [outsAt1_B V c t h0 h7]
      exact sB0_eq V c t h0 h7 (prev1 V c t).2.1 (prev1 V c t).2.2
  refine (congrFun e (ix2 r j)).trans ?_
  exact acc_step1 (blkI V c t) (prev1 V c t).2.1 (blkA1 V c t) _ r j (share1 V c t hN r j)

set_option maxHeartbeats 1000000 in
/-- and the second likewise. -/
theorem next2 (c : Dev nD) (t : Fin cfg1.N) (hN : t.val < 128) (h0 : ¬t.val % 8 = 0) (r j : Fin 256) :
    (outsAt1 V c t.val t.isLt).2.2 (ix2 r j)
      = (prev1 V c t).2.2 (ix2 r j) + blockSum (V c main_arg5) (V c main_v0) (rowAt t.val hN r) (colR j) (t.val % 8) := by
  have e : (outsAt1 V c t.val t.isLt).2.2 = k1_pay5 (blkI V c t) (prev1 V c t).2.2 (blkA2 V c t) := by
    by_cases h7 : t.val % 8 = 7
    · rw [outsAt1_C V c t h7]
      exact sC1_eq V c t h7 (prev1 V c t).2.1 (prev1 V c t).2.2
    · rw [outsAt1_B V c t h0 h7]
      exact sB1_eq V c t h0 h7 (prev1 V c t).2.1 (prev1 V c t).2.2
  refine (congrFun e (ix2 r j)).trans ?_
  exact acc_step2 (blkI V c t) (prev1 V c t).2.2 (blkA2 V c t) _ r j (share2 V c t hN r j)

/-- At a later point of the row panel: what the point before left, plus this block's share. -/
theorem step_next (c : Dev nD) (t : Fin cfg1.N) (hN : t.val < 128) (h0 : ¬t.val % 8 = 0) (r j : Fin 256) :
    (outsAt1 V c t.val t.isLt).2.1 (ix2 r j)
      = (prev1 V c t).2.1 (ix2 r j) + blockSum (V c main_arg4) (V c main_v0) (rowAt t.val hN r) (colL j) (t.val % 8)
    ∧ (outsAt1 V c t.val t.isLt).2.2 (ix2 r j)
      = (prev1 V c t).2.2 (ix2 r j) + blockSum (V c main_arg5) (V c main_v0) (rowAt t.val hN r) (colR j) (t.val % 8) :=
  ⟨next1 V c t hN h0 r j, next2 V c t hN h0 r j⟩

/-- THE ACCUMULATORS after point `n`: the shares of column blocks 0 … n % 8 of the row panel's rows, added. -/
theorem acc_closed (c : Dev nD) : ∀ (n : ℕ) (hn : n < cfg1.N) (h128 : n < 128) (r j : Fin 256),
    (outsAt1 V c n hn).2.1 (ix2 r j) = partSum (V c main_arg4) (V c main_v0) (rowAt n h128 r) (colL j) (n % 8 + 1)
    ∧ (outsAt1 V c n hn).2.2 (ix2 r j) = partSum (V c main_arg5) (V c main_v0) (rowAt n h128 r) (colR j) (n % 8 + 1)
  | 0, hn, h128, r, j => by
    obtain ⟨e1, e2⟩ := step_first V c ⟨0, hn⟩ h128 rfl r j
    exact ⟨e1.trans ((zero_add _).trans (partSum_one _ _ _ _).symm), e2.trans ((zero_add _).trans (partSum_one _ _ _ _).symm)⟩
  | n + 1, hn, h128, r, j => by
    by_cases h0 : (n + 1) % 8 = 0
    · obtain ⟨e1, e2⟩ := step_first V c ⟨n + 1, hn⟩ h128 h0 r j
      have k1 : partSum (V c main_arg4) (V c main_v0) (rowAt (n + 1) h128 r) (colL j) ((n + 1) % 8 + 1)
          = blockSum (V c main_arg4) (V c main_v0) (rowAt (n + 1) h128 r) (colL j) ((n + 1) % 8) := by
        rw [h0]; exact partSum_one _ _ _ _
      have k2 : partSum (V c main_arg5) (V c main_v0) (rowAt (n + 1) h128 r) (colR j) ((n + 1) % 8 + 1)
          = blockSum (V c main_arg5) (V c main_v0) (rowAt (n + 1) h128 r) (colR j) ((n + 1) % 8) := by
        rw [h0]; exact partSum_one _ _ _ _
      exact ⟨e1.trans ((zero_add _).trans k1.symm), e2.trans ((zero_add _).trans k2.symm)⟩
    · obtain ⟨e1, e2⟩ := step_next V c ⟨n + 1, hn⟩ h128 h0 r j
      obtain ⟨i1, i2⟩ := acc_closed c n (Nat.lt_of_succ_lt hn) (by omega) r j
      have hrow : rowAt (n + 1) h128 r = rowAt n (by omega) r := Fin.ext (by
        show 256 * ((n + 1) / 8) + r.val = 256 * (n / 8) + r.val
        omega)
      have hq : (n + 1) % 8 = n % 8 + 1 := by omega
      have k1 : partSum (V c main_arg4) (V c main_v0) (rowAt (n + 1) h128 r) (colL j) ((n + 1) % 8)
          = partSum (V c main_arg4) (V c main_v0) (rowAt n (by omega) r) (colL j) (n % 8 + 1) := by rw [hrow, hq]
      have k2 : partSum (V c main_arg5) (V c main_v0) (rowAt (n + 1) h128 r) (colR j) ((n + 1) % 8)
          = partSum (V c main_arg5) (V c main_v0) (rowAt n (by omega) r) (colR j) (n % 8 + 1) := by rw [hrow, hq]
      refine ⟨e1.trans ?_, e2.trans ?_⟩
      · refine Eq.trans ?_ (partSum_succ _ _ _ _ _).symm
        exact congrArg₂ (· + ·) (i1.trans k1.symm) rfl
      · refine Eq.trans ?_ (partSum_succ _ _ _ _ _).symm
        exact congrArg₂ (· + ·) (i2.trans k2.symm) rfl

end Cert.ReferenceIdeal.Reg1

end
-- ==== Proof.RefValue1.lean ====
/-
  What the aggregation stage leaves in its result array, on the extended reals: the two aggregations side by side.

  The output block of row panel i is written back once, at the panel's last column block (point 8·i + 7).  It then
  holds the first accumulator in its left half and the second in its right half, and each accumulator holds all eight
  column blocks' shares — the sum over all 4096 nodes.  So the block written back is rows 256·i … 256·i + 255 of
  `outCat` of the two adjacency matrices and the first stage's result as the stage finds them (`flushed_eq1`); row
  `r` of the result lies in the block of point 8·(r / 256) + 7, so these sixteen blocks cover the array (`cover1`).
-/
import proofs.«104746_g2000202054435738_pallasbulk_107_12_alg».proof.Proof.RefAccum1
import Idealize.ShloMosaic.Lib.Pipeline.Value

set_option maxRecDepth 16384

noncomputable section

namespace Cert.ReferenceIdeal.Reg1

open Cert.ReferenceIdeal Cert.ReferenceIdeal.Gen
open Idealize.ShloMosaic Idealize.ShloMosaic.TcCoe Idealize.ShloMosaic.ValueIdx Idealize.SL.Sem
open Idealize.ShloMosaic.Pipeline (Dat)
open Cert.Proof

variable (V : (c : Dev nD) → (b : Ref sig .tc) → Buf (Elt Ideal) ((c : Thread nD τ).loc b))

/-- At a panel's last point the output block's left half is the first accumulator's new contents, -/
theorem out_left (c : Dev nD) (t : Fin cfg1.N) (h7 : t.val % 8 = 7) (r : Fin 256) (q : Fin 512) (h : q.val < 256) :
    (outsAt1 V c t.val t.isLt).1 (ix2 r q) = (outsAt1 V c t.val t.isLt).2.1 (ix2 r ⟨q.val, h⟩) := by
  have e3 : (outsAt1 V c t.val t.isLt).1 = oC3 V c t h7 (prev1 V c t).2.1 (prev1 V c t).2.2 := by
    rw [outsAt1_C V c t h7]
  have e0 : (outsAt1 V c t.val t.isLt).2.1 = k1_pay4 (F := Ideal) (iblk1 V c 2 t) (prev1 V c t).2.1 (iblk1 V c 0 t) := by
    rw [outsAt1_C V c t h7]
    exact sC0_eq V c t h7 (prev1 V c t).2.1 (prev1 V c t).2.2
  refine (congrFun e3 (ix2 r q)).trans ?_
  refine (congrFun (oC3_eq V c t h7 (prev1 V c t).2.1 (prev1 V c t).2.2) (ix2 r q)).trans ?_
  refine (halves_left _ _ r q h).trans ?_
  exact (congrFun e0 (ix2 r ⟨q.val, h⟩)).symm

/-- … and its right half the second accumulator's. -/
theorem out_right (c : Dev nD) (t : Fin cfg1.N) (h7 : t.val % 8 = 7) (r : Fin 256) (q : Fin 512) (h : ¬ q.val < 256) :
    (outsAt1 V c t.val t.isLt).1 (ix2 r q)
      = (outsAt1 V c t.val t.isLt).2.2 (ix2 r ⟨q.val - 256, by have := q.isLt; omega⟩) := by
  have e3 : (outsAt1 V c t.val t.isLt).1 = oC3 V c t h7 (prev1 V c t).2.1 (prev1 V c t).2.2 := by
    rw [outsAt1_C V c t h7]
  have e1 : (outsAt1 V c t.val t.isLt).2.2 = k1_pay5 (F := Ideal) (iblk1 V c 2 t) (prev1 V c t).2.2 (iblk1 V c 1 t) := by
    rw [outsAt1_C V c t h7]
    exact sC1_eq V c t h7 (prev1 V c t).2.1 (prev1 V c t).2.2
  refine (congrFun e3 (ix2 r q)).trans ?_
  refine (congrFun (oC3_eq V c t h7 (prev1 V c t).2.1 (prev1 V c t).2.2) (ix2 r q)).trans ?_
  refine (halves_right _ _ r q h).trans ?_
  exact (congrFun e1 (ix2 r ⟨q.val - 256, by have := q.isLt; omega⟩)).symm

/-- The output block's entry at `y`, at a panel's last point, is the specification's entry at the panel's row. -/
theorem out_entry (c : Dev nD) (t : Fin cfg1.N) (hN : t.val < 128) (h7 : t.val % 8 = 7)
    (y : S256x512.Idx) (i : (⟨2, ![4096, 512]⟩ : Shape).Idx)
    (hi0 : (i 0).val = 256 * (t.val / 8) + (y 0).val) (hi1 : (i 1).val = (y 1).val) :
    (outsAt1 V c t.val t.isLt).1 y = Spec.outCat (V c main_arg4) (V c main_arg5) (V c main_v0) i := by
  obtain ⟨r, q, rfl⟩ : ∃ (r : Fin 256) (q : Fin 512), y = ix2 r q := ⟨y 0, y 1, eq_ix2 y⟩
  have ei0 : i 0 = rowAt t.val hN r := Fin.ext hi0
  have ei1 : i 1 = q := Fin.ext hi1
  have h8 : t.val % 8 + 1 = 8 := by omega
  unfold Spec.outCat
  by_cases h : q.val < 256
  · rw [if_pos (by rw [ei1]; exact h), out_left V c t h7 r q h, (acc_closed V c t.val t.isLt hN r ⟨q.val, h⟩).1, h8, partSum_eight,
      ei0, ei1]
  · have hq' : q.val - 256 < 256 := by have := q.isLt; omega
    have ecol : colR ⟨q.val - 256, hq'⟩ = q := Fin.ext (by show 256 + (q.val - 256) = q.val; omega)
    rw [if_neg (by rw [ei1]; exact h), out_right V c t h7 r q h, (acc_closed V c t.val t.isLt hN r ⟨q.val - 256, hq'⟩).2, h8,
      partSum_eight, ecol, ei0, ei1]

/-- WHAT A PANEL'S LAST POINT WRITES BACK is the panel's block of the side-by-side aggregation. -/
theorem flushed_eq1 (c : Dev nD) (t : Fin cfg1.N) (hf : (cfg1.win 3).flush t = true) :
    (dat1 (F := Ideal) V c).flushed 3 t = ((cfg1.win 3).blk t).view.read (Elt Ideal)
      (Spec.outCat (V c main_arg4) (V c main_arg5) (V c main_v0)) := by
  have h7 : t.val % 8 = 7 := (flush1_3 t).mp hf
  have hN : t.val < 128 := lt_of_lt_of_eq t.isLt (show cfg1.N = 128 from N_1)
  obtain ⟨-, -, -, -, -, -, e0, e1⟩ := idx_facts1 t
  show (cfg1.win 3).cut (grid1.coords t) ((dat1 (F := Ideal) V c).after 3 t) = _
  rw [after1_3]
  funext y
  show (outsAt1 V c t.val t.isLt).1 y
    = Spec.outCat (V c main_arg4) (V c main_arg5) (V c main_v0) (((cfg1.win 3).blk t).view.emb y)
  refine out_entry V c t hN h7 y (((cfg1.win 3).blk t).view.emb y) ?_ ?_
  · show win1_3.index t (0 : Fin 2) * 256 + 1 * (y 0).val = 256 * (t.val / 8) + (y 0).val
    rw [e0]; omega
  · show win1_3.index t (1 : Fin 2) * 512 + 1 * (y 1).val = (y 1).val
    rw [e1]; omega

/-- An entry of the result is in point `t`'s block iff each coordinate is in the block's range on its axis. -/
theorem mem_blk1 (t : Fin cfg1.N) (i : S4096x512.Idx) :
    i ∈ ((cfg1.win 3).blk t).view.set ↔ ∀ a : Fin 2, win1_3.index t a * S256x512.size a ≤ (i a).val
      ∧ (i a).val < win1_3.index t a * S256x512.size a + S256x512.size a := by
  show i ∈ ((View.whole main_v1).slice (win1_3.rect t)).set ↔ _
  rw [View.set_slice_whole, Rect.mem_set_unit]
  exact Iff.rfl

/-- Row `r` of the result is written back by point 8·(r / 256) + 7. -/
theorem cover1 (i : S4096x512.Idx) :
    ∃ t : Fin cfg1.N, (cfg1.win 3).flush t = true ∧ i ∈ ((cfg1.win 3).blk t).view.set := by
  have hi0 : (i 0).val < 4096 := (i 0).isLt
  have hi1 : (i 1).val < 512 := (i 1).isLt
  have hN : cfg1.N = 128 := N_1
  obtain ⟨t, ht⟩ : ∃ t : Fin cfg1.N, t.val = 8 * ((i 0).val / 256) + 7 :=
    ⟨⟨8 * ((i 0).val / 256) + 7, by rw [hN]; omega⟩, rfl⟩
  obtain ⟨-, -, -, -, -, -, e0, e1⟩ := idx_facts1 t
  refine ⟨t, (flush1_3 t).mpr (by omega), ?_⟩
  rw [mem_blk1]
  intro a
  match a with
  | ⟨0, _⟩ =>
    show win1_3.index t (0 : Fin 2) * 256 ≤ (i 0).val ∧ (i 0).val < win1_3.index t (0 : Fin 2) * 256 + 256
    rw [e0, ht]; omega
  | ⟨1, _⟩ =>
    show win1_3.index t (1 : Fin 2) * 512 ≤ (i 1).val ∧ (i 1).val < win1_3.index t (1 : Fin 2) * 512 + 512
    rw [e1]; omega

/-- THE RESULT ARRAY after the aggregation stage: the two aggregations side by side, as one function of the two
    adjacency matrices and the first stage's result as the stage finds them. -/
theorem out_array (c : Dev nD) :
    (dat1 (F := Ideal) V c).arrAt 3 cfg1.N = Spec.outCat (V c main_arg4) (V c main_arg5) (V c main_v0) :=
  (dat1 (F := Ideal) V c).arrAt_eq_of_cover 3 (Spec.outCat (V c main_arg4) (V c main_arg5) (V c main_v0))
    (fun t hf => flushed_eq1 V c t hf) cover1

end Cert.ReferenceIdeal.Reg1

end
-- ==== Proof.lean ====
/-
  The certificate's proof: the single-call kernel and the two-stage reference compute the same two arrays.

  With att = exp(−sigma), both programs return
    m[i,j] = Σ_k adj1[i,k] · (Σ_l (miu[k,l] · att[k,l]) · Wm[l,j]),   s[i,j] = Σ_k adj2[i,k] · (Σ_l ((sigma[k,l] · att[k,l]) · att[k,l]) · Ws[l,j])
  on the extended reals (Proof/Spec.lean).  The kernel keeps the two transformed feature arrays in scratch memory,
  recomputed at the first of each core's eight row panels, and multiplies each 256-row panel of an adjacency matrix
  by them in one product over all 4096 nodes (Proof/KernelRun.lean).  The reference forms the transformed features
  in a first stage, 512 rows at a time, side by side in one array, and in a second stage accumulates, per 256-row
  panel, eight partial products over 512 nodes each from a zero start (Proof/RefFinal.lean); the two agree because
  addition of extended reals is commutative and associative with 0 neutral — no finiteness of the inputs is used.
  The frames: each program terminates without fault and leaves its arguments unchanged; the idealized kernel is the
  kernel's own text read at the ideal instance (no rewrite was made, so nothing is owed for it).
-/
import proofs.«104746_g2000202054435738_pallasbulk_107_12_alg».proof.Defs
import proofs.«104746_g2000202054435738_pallasbulk_107_12_alg».proof.Proof.Gen.Kernel
import proofs.«104746_g2000202054435738_pallasbulk_107_12_alg».proof.Proof.Gen.Kernel.Frame
import proofs.«104746_g2000202054435738_pallasbulk_107_12_alg».proof.Proof.Gen.KernelIdeal
import proofs.«104746_g2000202054435738_pallasbulk_107_12_alg».proof.Proof.Gen.KernelIdeal.Frame
import proofs.«104746_g2000202054435738_pallasbulk_107_12_alg».proof.Proof.Gen.ReferenceIdeal
import proofs.«104746_g2000202054435738_pallasbulk_107_12_alg».proof.Proof.Gen.Pre_finite_inputs
import proofs.«104746_g2000202054435738_pallasbulk_107_12_alg».proof.Proof.KernelRun
import proofs.«104746_g2000202054435738_pallasbulk_107_12_alg».proof.Proof.RefFinal
import proofs.«104746_g2000202054435738_pallasbulk_107_12_alg».proof.Proof.RefValue1
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2.2) (Cert.Proof.RefFinal.run m ρ Cert.ReferenceIdeal.Reg1.out_array),
  trivial,
  fun m ρ m' ρ' _ hagree =>
    ⟨fun c => Spec.outM (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
     fun c => Spec.outS (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)),
     Cert.Proof.KernelRun.run m ρ,
     (θ_run (Cert.ReferenceIdeal.defs (F := Ideal)) _ _).mono (fun _ h c =>
        ⟨(h c).1.trans (by rw [(hagree c).1, (hagree c).2.1, (hagree c).2.2.1, (hagree c).2.2.2.2.1]),
         (h c).2.1.trans (by rw [(hagree c).2.1, (hagree c).2.2.2.1, (hagree c).2.2.2.2.2]),
         (h c).2.2⟩) (Cert.Proof.RefFinal.run m' ρ' Cert.ReferenceIdeal.Reg1.out_array)⟩⟩

end Cert.Proof

end
